-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x20000x25 : Shape := ⟨3, ![32, 20000, 25]⟩
abbrev S20000x4 : Shape := ⟨2, ![20000, 4]⟩
abbrev S_ : Shape := ⟨0, ![]⟩

class Facts : Prop where
  bcast_S_S32x20000x25 : S_.BroadcastsInDim S32x20000x25 (![] : Fin 0 → Fin S32x20000x25.rank)
  reducesTo_S32x20000x25_S_d0_1_2 : S32x20000x25.ReducesTo [0, 1, 2] S_
  h_S_ : 0 < S_.numel
  bcast_S_S20000x4 : S_.BroadcastsInDim S20000x4 (![] : Fin 0 → Fin S20000x4.rank)
  reducesTo_S20000x4_S_d0_1 : S20000x4.ReducesTo [0, 1] S_

variable [Facts]

def fn {F : FTy → Type} [FloatOps F] (main_arg0 : FVec F S32x20000x25 .f32) (main_arg1 : FVec F S20000x4 .f32) : IVec S_ 1 :=
  let main_v0 : FVec F S32x20000x25 .f32 := Host.absf main_arg0
  let main_cst : FVec F S_ .f32 := constant S_ .f32 0x7F800000#32
  let main_v1 : FVec F S32x20000x25 .f32 := broadcastInDim S32x20000x25 ![] bcast_S_S32x20000x25 main_cst
  let main_v2 : IVec S32x20000x25 1 := cmpf .olt main_v0 main_v1
  let main_c : IVec S_ 1 := constantI S_ 1 1#1
  let main_v3 : IVec S_ 1 := (fun x v => Host.reduce IntOp.andi x v reducesTo_S32x20000x25_S_d0_1_2 h_S_) main_v2 main_c
  let main_v4 : FVec F S20000x4 .f32 := Host.absf main_arg1
  let main_cst_0 : FVec F S_ .f32 := constant S_ .f32 0x7F800000#32
  let main_v5 : FVec F S20000x4 .f32 := broadcastInDim S20000x4 ![] bcast_S_S20000x4 main_cst_0
  let main_v6 : IVec S20000x4 1 := cmpf .olt main_v4 main_v5
  let main_c_1 : IVec S_ 1 := constantI S_ 1 1#1
  let main_v7 : IVec S_ 1 := (fun x v => Host.reduce IntOp.andi x v reducesTo_S20000x4_S_d0_1 h_S_) main_v6 main_c_1
  let main_v8 : IVec S_ 1 := andi main_v3 main_v7
  main_v8
-- ==== Kernel.lean ====
abbrev S32x20000x25 : Shape := ⟨3, ![32, 20000, 25]⟩
abbrev S20000x4 : Shape := ⟨2, ![20000, 4]⟩
abbrev S25x32x20000 : Shape := ⟨3, ![25, 32, 20000]⟩
abbrev S4x20000 : Shape := ⟨2, ![4, 20000]⟩
abbrev S25x32x4480 : Shape := ⟨3, ![25, 32, 4480]⟩
abbrev S4x4480 : Shape := ⟨2, ![4, 4480]⟩
abbrev S1x4480 : Shape := ⟨2, ![1, 4480]⟩
abbrev S1x32x4480 : Shape := ⟨3, ![1, 32, 4480]⟩
abbrev S32x4480 : Shape := ⟨2, ![32, 4480]⟩
abbrev S21x32x4480 : Shape := ⟨3, ![21, 32, 4480]⟩

abbrev nBuf : Space → Nat
  | .hbm => 6
  | .vmem => 6
  | .smem => 0
  | _ => 0

abbrev bufTy : (tb : Table) → Fin (tcTables nBuf tb) → BufTy
  | .hbm, ⟨0, _⟩ => ⟨S32x20000x25, .f32⟩
  | .hbm, ⟨1, _⟩ => ⟨S20000x4, .f32⟩
  | .hbm, ⟨2, _⟩ => ⟨S25x32x20000, .f32⟩
  | .hbm, ⟨3, _⟩ => ⟨S4x20000, .f32⟩
  | .hbm, ⟨4, _⟩ => ⟨S25x32x20000, .f32⟩
  | .hbm, ⟨5, _⟩ => ⟨S32x20000x25, .f32⟩
  | .local _ .vmem, ⟨0, _⟩ => ⟨S25x32x4480, .f32⟩
  | .local _ .vmem, ⟨1, _⟩ => ⟨S25x32x4480, .f32⟩
  | .local _ .vmem, ⟨2, _⟩ => ⟨S4x4480, .f32⟩
  | .local _ .vmem, ⟨3, _⟩ => ⟨S4x4480, .f32⟩
  | .local _ .vmem, ⟨4, _⟩ => ⟨S25x32x4480, .f32⟩
  | .local _ .vmem, ⟨5, _⟩ => ⟨S25x32x4480, .f32⟩
  | _, _ => ⟨S32x20000x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S25x32x4480 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x4480 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S25x32x4480 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S32x20000x25_S25x32x20000_2_0_1 : S32x20000x25.Transposes [2, 0, 1] S25x32x20000
  transposes_S20000x4_S4x20000_1_0 : S20000x4.Transposes [1, 0] S4x20000
  inb_S4x4480_S1x4480_2_0 : ∀ a, (![2, 0] : Fin 2 → Nat) a + S1x4480.size a ≤ S4x4480.size a
  h_S1x4480 : 0 < S1x4480.numel
  shapeCasts_S1x4480_S1x4480 : S1x4480.ShapeCasts S1x4480
  inb_S4x4480_S1x4480_3_0 : ∀ a, (![3, 0] : Fin 2 → Nat) a + S1x4480.size a ≤ S4x4480.size a
  inb_S25x32x4480_S1x32x4480_0_0_0 : ∀ a, (![0, 0, 0] : Fin 3 → Nat) a + S1x32x4480.size a ≤ S25x32x4480.size a
  h_S1x32x4480 : 0 < S1x32x4480.numel
  shapeCasts_S1x32x4480_S32x4480 : S1x32x4480.ShapeCasts S32x4480
  broadcasts_S1x4480_S32x4480 : S1x4480.Broadcasts S32x4480
  shapeCasts_S32x4480_S1x32x4480 : S32x4480.ShapeCasts S1x32x4480
  inb_S25x32x4480_S1x32x4480_1_0_0 : ∀ a, (![1, 0, 0] : Fin 3 → Nat) a + S1x32x4480.size a ≤ S25x32x4480.size a
  inb_S25x32x4480_S1x32x4480_2_0_0 : ∀ a, (![2, 0, 0] : Fin 3 → Nat) a + S1x32x4480.size a ≤ S25x32x4480.size a
  inb_S25x32x4480_S1x32x4480_3_0_0 : ∀ a, (![3, 0, 0] : Fin 3 → Nat) a + S1x32x4480.size a ≤ S25x32x4480.size a
  inb_S25x32x4480_S21x32x4480_4_0_0 : ∀ a, (![4, 0, 0] : Fin 3 → Nat) a + S21x32x4480.size a ≤ S25x32x4480.size a
  h_S21x32x4480 : 0 < S21x32x4480.numel
  shapeCasts_S21x32x4480_S21x32x4480 : S21x32x4480.ShapeCasts S21x32x4480
  transposes_S25x32x20000_S32x20000x25_1_2_0 : S25x32x20000.Transposes [1, 2, 0] S32x20000x25
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S25x32x4480.size a < S25x32x20000.size a
  hwx0_0 : ∀ i : grid0.Coords, EltTy.bits .f32 = 32 ∨ (Rect.unit (s := S25x32x20000) (fun a => cc0_transform_0 i a * S25x32x4480.size a) (fun a => (Pipeline.Clip.of (cc0_transform_0 i a) (S25x32x4480.size a) (S25x32x20000.size a)).extent (S25x32x4480.size a)) fun a => Pipeline.Clip.inb (Pipeline.Clip.ok_of (hstart0_0 i a))).WholeWords (EltTy.packing .f32)
  hwxs0_0 : ∀ i : grid0.Coords, EltTy.bits .f32 = 32 ∨ (Rect.unit (s := S25x32x4480) (fun _ => 0) (fun a => (Pipeline.Clip.of (cc0_transform_0 i a) (S25x32x4480.size a) (S25x32x20000.size a)).extent (S25x32x4480.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4x4480.size a < S4x20000.size a
  hwx0_1 : ∀ i : grid0.Coords, EltTy.bits .f32 = 32 ∨ (Rect.unit (s := S4x20000) (fun a => cc0_transform_1 i a * S4x4480.size a) (fun a => (Pipeline.Clip.of (cc0_transform_1 i a) (S4x4480.size a) (S4x20000.size a)).extent (S4x4480.size a)) fun a => Pipeline.Clip.inb (Pipeline.Clip.ok_of (hstart0_1 i a))).WholeWords (EltTy.packing .f32)
  hwxs0_1 : ∀ i : grid0.Coords, EltTy.bits .f32 = 32 ∨ (Rect.unit (s := S4x4480) (fun _ => 0) (fun a => (Pipeline.Clip.of (cc0_transform_1 i a) (S4x4480.size a) (S4x20000.size a)).extent (S4x4480.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S25x32x4480.size a < S25x32x20000.size a
  hwx0_2 : ∀ i : grid0.Coords, EltTy.bits .f32 = 32 ∨ (Rect.unit (s := S25x32x20000) (fun a => cc0_transform_2 i a * S25x32x4480.size a) (fun a => (Pipeline.Clip.of (cc0_transform_2 i a) (S25x32x4480.size a) (S25x32x20000.size a)).extent (S25x32x4480.size a)) fun a => Pipeline.Clip.inb (Pipeline.Clip.ok_of (hstart0_2 i a))).WholeWords (EltTy.packing .f32)
  hwxs0_2 : ∀ i : grid0.Coords, EltTy.bits .f32 = 32 ∨ (Rect.unit (s := S25x32x4480) (fun _ => 0) (fun a => (Pipeline.Clip.of (cc0_transform_2 i a) (S25x32x4480.size a) (S25x32x20000.size a)).extent (S25x32x4480.size a)) fun a => (Nat.zero_add _).trans_le (Pipeline.Clip.extent_le (Pipeline.Clip.ok_of (hstart0_2 i a)))).WholeWords (EltTy.packing .f32)

variable [Facts₀]

abbrev win0_0 : Pipeline.Window sig grid0 :=
  Pipeline.Window.ofSpecClip (Memref.whole main_v0) S25x32x4480.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S4x4480.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2) S25x32x4480.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x20000x25 : Shape := ⟨3, ![32, 20000, 25]⟩
abbrev S20000x4 : Shape := ⟨2, ![20000, 4]⟩
abbrev S32x20000x4 : Shape := ⟨3, ![32, 20000, 4]⟩
abbrev S32x20000x21 : Shape := ⟨3, ![32, 20000, 21]⟩
abbrev S20000x2 : Shape := ⟨2, ![20000, 2]⟩
abbrev S1x20000x2 : Shape := ⟨3, ![1, 20000, 2]⟩
abbrev S32x20000x2 : Shape := ⟨3, ![32, 20000, 2]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S32x20000x25, .f32⟩
  | .hbm, ⟨1, _⟩ => ⟨S20000x4, .f32⟩
  | .hbm, ⟨2, _⟩ => ⟨S32x20000x4, .f32⟩
  | .hbm, ⟨3, _⟩ => ⟨S32x20000x21, .f32⟩
  | .hbm, ⟨4, _⟩ => ⟨S20000x2, .f32⟩
  | .hbm, ⟨5, _⟩ => ⟨S1x20000x2, .f32⟩
  | .hbm, ⟨6, _⟩ => ⟨S32x20000x2, .f32⟩
  | .hbm, ⟨7, _⟩ => ⟨S_, .f32⟩
  | .hbm, ⟨8, _⟩ => ⟨S32x20000x2, .f32⟩
  | .hbm, ⟨9, _⟩ => ⟨S32x20000x2, .f32⟩
  | .hbm, ⟨10, _⟩ => ⟨S32x20000x2, .f32⟩
  | .hbm, ⟨11, _⟩ => ⟨S32x20000x2, .f32⟩
  | .hbm, ⟨12, _⟩ => ⟨S32x20000x2, .f32⟩
  | .hbm, ⟨13, _⟩ => ⟨S32x20000x2, .f32⟩
  | .hbm, ⟨14, _⟩ => ⟨S32x20000x2, .f32⟩
  | .hbm, ⟨15, _⟩ => ⟨S32x20000x2, .f32⟩
  | .hbm, ⟨16, _⟩ => ⟨S32x20000x25, .f32⟩
  | _, _ => ⟨S32x20000x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]

class Facts₀ : Prop where
  slices_S32x20000x25_S32x20000x4_0_0_0 : S32x20000x25.Slices ![0, 0, 0] S32x20000x4
  slices_S32x20000x25_S32x20000x21_0_0_4 : S32x20000x25.Slices ![0, 0, 4] S32x20000x21
  slices_S20000x4_S20000x2_0_2 : S20000x4.Slices ![0, 2] S20000x2
  bcast_S20000x2_S1x20000x2_1_2 : S20000x2.BroadcastsInDim S1x20000x2 (![1, 2] : Fin 2 → Fin S1x20000x2.rank)
  slices_S32x20000x4_S32x20000x2_0_0_0 : S32x20000x4.Slices ![0, 0, 0] S32x20000x2
  bcast_S_S32x20000x2 : S_.BroadcastsInDim S32x20000x2 (![] : Fin 0 → Fin S32x20000x2.rank)
  bcast_S1x20000x2_S32x20000x2_0_1_2 : S1x20000x2.BroadcastsInDim S32x20000x2 (![0, 1, 2] : Fin 3 → Fin S32x20000x2.rank)
  slices_S32x20000x4_S32x20000x2_0_0_2 : S32x20000x4.Slices ![0, 0, 2] S32x20000x2
  concatenates_S32x20000x2_S32x20000x2_S32x20000x21_S32x20000x25_d2 : Shape.Concatenates [S32x20000x2, S32x20000x2, S32x20000x21] S32x20000x25 2

variable [Facts₀]

class Facts : Prop extends Facts₀ where

variable [Facts]
-- ==== Proof.BitsStores.lean ====
/-
  What the kernel body leaves in the output block, as a function of the two input blocks.

  The body works on a block of 4480 priors: `x0` is the block of the channel-major input (25 channels, 32 images,
  4480 priors), `x1` the block of the transposed prior table (4 rows, 4480 priors). It makes five stores into the
  output block: channels 0, 1, 2, 3 one plane each, then channels 4‥24 in one piece. The five rectangles tile the
  block, so the block ends as the overlay of the five payloads.
  (The program as printed, before idealization, has the same body under its own names; this module states for it
  what the idealized program's module states.)
-/
import proofs.«129822_g62637803045608_cont_9to1c4b_476_15_alg».proof.Proof.Gen.Kernel.Skeleton
import Idealize.ShloMosaic.Lib.Pipeline.FrameBody

set_option maxRecDepth 16384

noncomputable section

namespace Cert.Kernel.Hand

open Cert.Kernel Cert.Kernel.Gen
open Idealize.ShloMosaic Idealize.ShloMosaic.TcCoe

variable {F : FTy → Type} [FloatOps F]

/-! ## The rectangles the body reads and writes through -/

/-- Row 2 of the prior block: the widths. -/
abbrev qW : Rect S4x4480 := Rect.unit (s := S4x4480) ![2, 0] S1x4480.size inb_S4x4480_S1x4480_2_0
/-- Row 3 of the prior block: the heights. -/
abbrev qH : Rect S4x4480 := Rect.unit (s := S4x4480) ![3, 0] S1x4480.size inb_S4x4480_S1x4480_3_0
/-- Channel planes 0, 1, 2, 3 of a [25, 32, 4480] block, -/
abbrev r0 : Rect S25x32x4480 := Rect.unit (s := S25x32x4480) ![0, 0, 0] S1x32x4480.size inb_S25x32x4480_S1x32x4480_0_0_0
abbrev r1 : Rect S25x32x4480 := Rect.unit (s := S25x32x4480) ![1, 0, 0] S1x32x4480.size inb_S25x32x4480_S1x32x4480_1_0_0
abbrev r2 : Rect S25x32x4480 := Rect.unit (s := S25x32x4480) ![2, 0, 0] S1x32x4480.size inb_S25x32x4480_S1x32x4480_2_0_0
abbrev r3 : Rect S25x32x4480 := Rect.unit (s := S25x32x4480) ![3, 0, 0] S1x32x4480.size inb_S25x32x4480_S1x32x4480_3_0_0
/-- and channels 4‥24. -/
abbrev r4 : Rect S25x32x4480 := Rect.unit (s := S25x32x4480) ![4, 0, 0] S21x32x4480.size inb_S25x32x4480_S21x32x4480_4_0_0

/-! ## The five stores -/

/-- The body's stores, latest first, over the input blocks `x0` and `x1`. -/
def pieces (x0 : Vec F S25x32x4480 .f32) (x1 : Vec F S4x4480 .f32) : List (View.Piece (Elt F) S25x32x4480 .f32) :=
  [⟨r4, k0_pay2 (View.ld x0 r4)⟩,
   ⟨r3, k0_pay1 (k0_pay4 (View.ld x1 qH)) (View.ld x0 r3)⟩,
   ⟨r2, k0_pay7 (View.ld x1 qW) (View.ld x0 r2)⟩,
   ⟨r1, k0_pay6 (View.ld x1 qH) (View.ld x0 r1)⟩,
   ⟨r0, k0_pay5 (View.ld x1 qW) (View.ld x0 r0)⟩]

/-- The output block after the body. -/
def outBlock (x0 : Vec F S25x32x4480 .f32) (x1 : Vec F S4x4480 .f32) : Vec F S25x32x4480 .f32 :=
  View.canon (pieces x0 x1)

/-- An index of the block lies in the rectangle of its channel: planes 0‥3 one each, the rest in the last. -/
theorem cover' (p4 : r4.shape.Idx → Elt F .f32) (p3 : r3.shape.Idx → Elt F .f32) (p2 : r2.shape.Idx → Elt F .f32)
    (p1 : r1.shape.Idx → Elt F .f32) (p0 : r0.shape.Idx → Elt F .f32) (y : S25x32x4480.Idx) :
    ∃ pc ∈ ([⟨r4, p4⟩, ⟨r3, p3⟩, ⟨r2, p2⟩, ⟨r1, p1⟩, ⟨r0, p0⟩] : List (View.Piece (Elt F) S25x32x4480 .f32)), y ∈ pc.1.set := by
  have h0 : (y 0 : Nat) < 25 := (y 0).isLt
  have h1 : (y 1 : Nat) < 32 := (y 1).isLt
  have h2 : (y 2 : Nat) < 4480 := (y 2).isLt
  have mem : ∀ (r : Rect S25x32x4480) (o n : Nat), r.off = ![o, 0, 0] → r.size = ![n, 32, 4480] → (∀ a, r.stride a = 1) →
      o ≤ (y 0 : Nat) → (y 0 : Nat) < o + n → y ∈ r.set := by
    intro r o n ho hn hs hlo hhi
    rw [LoadRect.mem_set]; intro a
    match a with
    | ⟨0, _⟩ => exact ⟨(y 0 : Nat) - o, by rw [hn]; show _ < n; omega, by rw [ho, hs]; show (y 0 : Nat) = o + 1 * ((y 0 : Nat) - o); omega⟩
    | ⟨1, _⟩ => exact ⟨(y 1 : Nat), by rw [hn]; show _ < 32; omega, by rw [ho, hs]; show (y 1 : Nat) = 0 + 1 * (y 1 : Nat); omega⟩
    | ⟨2, _⟩ => exact ⟨(y 2 : Nat), by rw [hn]; show _ < 4480; omega, by rw [ho, hs]; show (y 2 : Nat) = 0 + 1 * (y 2 : Nat); omega⟩
  by_cases c4 : 4 ≤ (y 0 : Nat)
  · exact ⟨_, List.mem_cons_self, mem r4 4 21 rfl rfl (fun _ => rfl) c4 (by omega)⟩
  by_cases c3 : (y 0 : Nat) = 3
  · exact ⟨_, List.mem_cons_of_mem _ List.mem_cons_self, mem r3 3 1 rfl rfl (fun _ => rfl) (by omega) (by omega)⟩
  by_cases c2 : (y 0 : Nat) = 2
  · exact ⟨_, List.mem_cons_of_mem _ (List.mem_cons_of_mem _ List.mem_cons_self), mem r2 2 1 rfl rfl (fun _ => rfl) (by omega) (by omega)⟩
  by_cases c1 : (y 0 : Nat) = 1
  · exact ⟨_, List.mem_cons_of_mem _ (List.mem_cons_of_mem _ (List.mem_cons_of_mem _ List.mem_cons_self)), mem r1 1 1 rfl rfl (fun _ => rfl) (by omega) (by omega)⟩
  · exact ⟨_, List.mem_cons_of_mem _ (List.mem_cons_of_mem _ (List.mem_cons_of_mem _ (List.mem_cons_of_mem _ List.mem_cons_self))), mem r0 0 1 rfl rfl (fun _ => rfl) (by omega) (by omega)⟩

theorem cover (x0 : Vec F S25x32x4480 .f32) (x1 : Vec F S4x4480 .f32) (y : S25x32x4480.Idx) :
    ∃ pc ∈ pieces x0 x1, y ∈ pc.1.set := cover' _ _ _ _ _ y

end Cert.Kernel.Hand

end
-- ==== Proof.BitsBody.lean ====
/-
  The kernel body run on whole staging buffers.

  Started with the input block `x0`, the prior block `x1` and ANY contents of the output buffer, the body ends with
  the two inputs untouched and the output buffer holding `outBlock x0 x1`: it loads the width and height rows and the
  channel planes, never uses what it loads from the output buffer, and its five stores cover the output block.
  (The program as printed, before idealization, has the same body under its own names; this module states for it
  what the idealized program's module states.)
-/
import proofs.«129822_g62637803045608_cont_9to1c4b_476_15_alg».proof.Proof.BitsStores
import proofs.«129822_g62637803045608_cont_9to1c4b_476_15_alg».proof.Proof.Gen.Kernel.Launch
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple: inputs kept, the output buffer at `outBlock` of them whatever it held. -/
theorem sound_kernel (c : Dev nD) (E : Set ℕ) (i : grid0.Coords)
    (arg1 : Memref sig .tc .vmem S25x32x4480 .f32) (harg1 : arg1.IsWhole) (arg2 : Memref sig .tc .vmem S4x4480 .f32) (harg2 : arg2.IsWhole)
    (arg3 : Memref sig .tc .vmem S25x32x4480 .f32) (harg3 : arg3.IsWhole)
    (x0 : Vec F S25x32x4480 .f32) (x1 : Vec F S4x4480 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (outBlock x0 x1)) -∗ K ⟨⟩))
      ⊢ wp frame (wpE (defs₀ (F := F)) Variants.none c none) E (cc0__decode_block i arg1 harg1 arg2 harg2 arg3 harg3) K := by
  simp only [cc0__decode_block_eq_skeleton]; unfold cc0__decode_block_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  unfold outBlock pieces
  exact View.read_writes_eq_canon _ _ _ (cover' _ _ _ _ _)

end Cert.Kernel.Hand

end
-- ==== Proof.Decode.lean ====
/-
  The box decode as one function of the two argument arrays, element by element.

  The input `p` holds, for each of 32 images and 20000 priors, 25 values: four location offsets followed by 21
  class scores. The prior table holds per prior its centre and its width `w` and height `h` (columns 2 and 3).
  The decode leaves the scores as they are and turns the offsets into
    channel 0 : (p + 1) · w      channel 1 : (p + 1) · h
    channel 2 : exp p · w        channel 3 : exp p · h.
  Every output element depends on one element of `p` and on the width and the height of its prior only.
-/
import Idealize.ShloMosaic.PureOps
import Idealize.ShloMosaic.Lib.ValueIdx

noncomputable section

namespace Cert.BoxDecode

open Idealize.ShloMosaic Idealize.ShloMosaic.ValueIdx

variable {F : FTy → Type} [FloatOps F]

/-- The float `1.0`. -/
abbrev one : F .f32 := FloatOps.ofBits .f32 0x3F800000#32

/-- Channel `ch` of one decoded entry from the raw value `x` and its prior's width `w` and height `h`. -/
def chan (ch : Nat) (x w h : F .f32) : F .f32 :=
  if ch = 0 then FloatOps.mulf (FloatOps.addf x one) w
  else if ch = 1 then FloatOps.mulf (FloatOps.addf x one) h
  else if ch = 2 then FloatOps.mulf (FloatOps.exp x) w
  else if ch = 3 then FloatOps.mulf (FloatOps.exp x) h
  else x

/-- The decoded array, in the arguments' own layout: image, prior, channel. -/
def decoded (p : FVec F ⟨3, ![32, 20000, 25]⟩ .f32) (pb : FVec F ⟨2, ![20000, 4]⟩ .f32) :
    FVec F ⟨3, ![32, 20000, 25]⟩ .f32 :=
  fun i => chan (i 2).val (p i) (pb (ix2 (i 1) (2 : Fin 4))) (pb (ix2 (i 1) (3 : Fin 4)))

/-- The same values channel-major (channel, image, prior): the layout the kernel streams. -/
def decodedT (pt : FVec F ⟨3, ![25, 32, 20000]⟩ .f32) (pbt : FVec F ⟨2, ![4, 20000]⟩ .f32) :
    FVec F ⟨3, ![25, 32, 20000]⟩ .f32 :=
  fun i => chan (i 0).val (pt i) (pbt (ix2 (2 : Fin 4) (i 2))) (pbt (ix2 (3 : Fin 4) (i 2)))

end Cert.BoxDecode

end
-- ==== Proof.BitsPayload.lean ====
/-
  The output block of the kernel body, read at an index.

  The body stores five pieces into its [25, 32, 4480] output block: the planes of channels 0, 1, 2, 3, each a
  pointwise function of the same plane of the input block and of one row of the prior block (row 2, the widths, or
  row 3, the heights), and channels 4‥24 copied unchanged. Every vector operation in the stored values is pointwise
  and every layout operation (dropping or adding the leading unit axis, repeating a [1, 4480] row over the 32 images)
  reads one element of its operand, so the block at (channel, image, prior) is the box decode of the input element
  there and of that prior's width and height — for every float instance.
  (The program as printed, before idealization, has the same body under its own names; this module states for it
  what the idealized program's module states.)
-/
import proofs.«129822_g62637803045608_cont_9to1c4b_476_15_alg».proof.Proof.BitsStores
import proofs.«129822_g62637803045608_cont_9to1c4b_476_15_alg».proof.Proof.Decode
import Idealize.ShloMosaic.Lib.ValueIdx
import Idealize.ShloMosaic.Lib.Pipeline.Value

set_option maxRecDepth 16384

noncomputable section

namespace Cert.Kernel.Hand

open Cert.Kernel Cert.Kernel.Gen Idealize.ShloMosaic Idealize.ShloMosaic.ValueIdx

variable {F : FTy → Type} [FloatOps F]

/-! ## Row-major positions: a [1, 32, 4480] index (0, b, n) and the [32, 4480] index (b, n) are the same place -/

theorem rowMajor_plane (b : Fin 32) (n : Fin 4480) :
    (S32x4480.rowMajor (ix2 b n)).val = (S1x32x4480.rowMajor (ix3 (0 : Fin 1) b n)).val := by
  rw [Shape.rowMajor_val_two, Shape.rowMajor_val_three]
  show b.val * 4480 + n.val = ((0 : Nat) * 32 + b.val) * 4480 + n.val
  omega

/-- A [1, 32, 4480] plane viewed [32, 4480] reads (b, n) at (0, b, n). -/
theorem dropUnit_apply {α : Type} (v : S1x32x4480.Idx → α) (b : Fin 32) (n : Fin 4480) :
    shapeCast S32x4480 v shapeCasts_S1x32x4480_S32x4480 (ix2 b n) = v (ix3 (0 : Fin 1) b n) :=
  shapeCast_apply v shapeCasts_S1x32x4480_S32x4480 (ix2 b n) (ix3 (0 : Fin 1) b n) (rowMajor_plane b n).symm

/-- A [32, 4480] value stored as a [1, 32, 4480] plane reads (0, b, n) at (b, n). -/
theorem addUnit_apply {α : Type} (v : S32x4480.Idx → α) (b : Fin 32) (n : Fin 4480) :
    shapeCast S1x32x4480 v shapeCasts_S32x4480_S1x32x4480 (ix3 (0 : Fin 1) b n) = v (ix2 b n) :=
  shapeCast_apply v shapeCasts_S32x4480_S1x32x4480 (ix3 (0 : Fin 1) b n) (ix2 b n) (rowMajor_plane b n)

/-- A [1, 4480] row repeated over the 32 images reads (b, n) at (0, n). -/
theorem row_apply {α : Type} (v : S1x4480.Idx → α) (b : Fin 32) (n : Fin 4480) :
    broadcastTo S32x4480 v broadcasts_S1x4480_S32x4480 (ix2 b n) = v (ix2 (0 : Fin 1) n) :=
  broadcastTo_apply v broadcasts_S1x4480_S32x4480 (ix2 b n) (ix2 (0 : Fin 1) n) fun a =>
    match a with
    | ⟨0, _⟩ => rfl
    | ⟨1, _⟩ => rfl

/-! ## The stored values at an index -/

/-- The prior rows pass through a cast to their own shape. -/
theorem pay3_apply (v0 : Vec F S1x4480 .f32) (i : S1x4480.Idx) : k0_pay3 v0 i = v0 i := by
  unfold k0_pay3
  exact congrFun (shapeCast_self v0 shapeCasts_S1x4480_S1x4480) i

theorem pay4_apply (v2 : Vec F S1x4480 .f32) (i : S1x4480.Idx) : k0_pay4 v2 i = v2 i := by
  unfold k0_pay4
  exact congrFun (shapeCast_self v2 shapeCasts_S1x4480_S1x4480) i

/-- Channels 4‥24 pass through a cast to their own shape. -/
theorem pay2_apply (v38 : Vec F S21x32x4480 .f32) (i : S21x32x4480.Idx) : k0_pay2 v38 i = v38 i := by
  unfold k0_pay2
  exact congrFun (shapeCast_self v38 shapeCasts_S21x32x4480_S21x32x4480) i

/-- Channel 0: (x + 1) · width. -/
theorem pay5_apply (v0 : Vec F S1x4480 .f32) (v4 : Vec F S1x32x4480 .f32) (b : Fin 32) (n : Fin 4480) :
    k0_pay5 v0 v4 (ix3 (0 : Fin 1) b n)
      = FloatOps.mulf (FloatOps.addf (v4 (ix3 (0 : Fin 1) b n)) Cert.BoxDecode.one) (v0 (ix2 (0 : Fin 1) n)) := by
  unfold k0_pay5
  refine (addUnit_apply _ b n).trans ?_
  refine congrArg₂ FloatOps.mulf (congrArg₂ FloatOps.addf (dropUnit_apply v4 b n) rfl) ?_
  exact (row_apply (k0_pay3 v0) b n).trans (pay3_apply v0 _)

/-- Channel 1: (x + 1) · height. -/
theorem pay6_apply (v2 : Vec F S1x4480 .f32) (v13 : Vec F S1x32x4480 .f32) (b : Fin 32) (n : Fin 4480) :
    k0_pay6 v2 v13 (ix3 (0 : Fin 1) b n)
      = FloatOps.mulf (FloatOps.addf (v13 (ix3 (0 : Fin 1) b n)) Cert.BoxDecode.one) (v2 (ix2 (0 : Fin 1) n)) := by
  unfold k0_pay6
  refine (addUnit_apply _ b n).trans ?_
  refine congrArg₂ FloatOps.mulf (congrArg₂ FloatOps.addf (dropUnit_apply v13 b n) rfl) ?_
  exact (row_apply (k0_pay4 v2) b n).trans (pay4_apply v2 _)

/-- Channel 2: exp x · width. -/
theorem pay7_apply (v0 : Vec F S1x4480 .f32) (v22 : Vec F S1x32x4480 .f32) (b : Fin 32) (n : Fin 4480) :
    k0_pay7 v0 v22 (ix3 (0 : Fin 1) b n)
      = FloatOps.mulf (FloatOps.exp (v22 (ix3 (0 : Fin 1) b n))) (v0 (ix2 (0 : Fin 1) n)) := by
  unfold k0_pay7
  refine (addUnit_apply _ b n).trans ?_
  refine congrArg₂ FloatOps.mulf (congrArg FloatOps.exp (dropUnit_apply v22 b n)) ?_
  exact (row_apply (k0_pay3 v0) b n).trans (pay3_apply v0 _)

/-- Channel 3: exp x · height (the height row as the earlier part of the body hands it on). -/
theorem pay1_apply (v3 : FVec F S1x4480 .f32) (v30 : Vec F S1x32x4480 .f32) (b : Fin 32) (n : Fin 4480) :
    k0_pay1 v3 v30 (ix3 (0 : Fin 1) b n)
      = FloatOps.mulf (FloatOps.exp (v30 (ix3 (0 : Fin 1) b n))) (v3 (ix2 (0 : Fin 1) n)) := by
  unfold k0_pay1
  refine (addUnit_apply _ b n).trans ?_
  exact congrArg₂ FloatOps.mulf (congrArg FloatOps.exp (dropUnit_apply v30 b n)) (row_apply v3 b n)

/-! ## Where the rectangles sit -/

/-- Row 2 of the prior block at prior n. -/
theorem qW_emb (n : Fin 4480) : qW.emb (ix2 (0 : Fin 1) n) = ix2 (2 : Fin 4) n := by
  funext a; apply Fin.ext
  match a with
  | ⟨0, _⟩ => rfl
  | ⟨1, _⟩ => show 0 + 1 * n.val = n.val; omega

/-- Row 3 of the prior block at prior n. -/
theorem qH_emb (n : Fin 4480) : qH.emb (ix2 (0 : Fin 1) n) = ix2 (3 : Fin 4) n := by
  funext a; apply Fin.ext
  match a with
  | ⟨0, _⟩ => rfl
  | ⟨1, _⟩ => show 0 + 1 * n.val = n.val; omega

theorem ld_qW (x1 : Vec F S4x4480 .f32) (n : Fin 4480) : View.ld x1 qW (ix2 (0 : Fin 1) n) = x1 (ix2 (2 : Fin 4) n) :=
  congrArg x1 (qW_emb n)

theorem ld_qH (x1 : Vec F S4x4480 .f32) (n : Fin 4480) : View.ld x1 qH (ix2 (0 : Fin 1) n) = x1 (ix2 (3 : Fin 4) n) :=
  congrArg x1 (qH_emb n)

/-- An index of channel 0, 1, 2, 3 is the index (0, b, n) of that channel's plane; -/
theorem r0_emb (ch : Fin 25) (b : Fin 32) (n : Fin 4480) (h : ch.val = 0) : r0.emb (ix3 (0 : Fin 1) b n) = ix3 ch b n := by
  funext a; apply Fin.ext
  match a with
  | ⟨0, _⟩ => show 0 + 1 * 0 = ch.val; omega
  | ⟨1, _⟩ => show 0 + 1 * b.val = b.val; omega
  | ⟨2, _⟩ => show 0 + 1 * n.val = n.val; omega

theorem r1_emb (ch : Fin 25) (b : Fin 32) (n : Fin 4480) (h : ch.val = 1) : r1.emb (ix3 (0 : Fin 1) b n) = ix3 ch b n := by
  funext a; apply Fin.ext
  match a with
  | ⟨0, _⟩ => show 1 + 1 * 0 = ch.val; omega
  | ⟨1, _⟩ => show 0 + 1 * b.val = b.val; omega
  | ⟨2, _⟩ => show 0 + 1 * n.val = n.val; omega

theorem r2_emb (ch : Fin 25) (b : Fin 32) (n : Fin 4480) (h : ch.val = 2) : r2.emb (ix3 (0 : Fin 1) b n) = ix3 ch b n := by
  funext a; apply Fin.ext
  match a with
  | ⟨0, _⟩ => show 2 + 1 * 0 = ch.val; omega
  | ⟨1, _⟩ => show 0 + 1 * b.val = b.val; omega
  | ⟨2, _⟩ => show 0 + 1 * n.val = n.val; omega

theorem r3_emb (ch : Fin 25) (b : Fin 32) (n : Fin 4480) (h : ch.val = 3) : r3.emb (ix3 (0 : Fin 1) b n) = ix3 ch b n := by
  funext a; apply Fin.ext
  match a with
  | ⟨0, _⟩ => show 3 + 1 * 0 = ch.val; omega
  | ⟨1, _⟩ => show 0 + 1 * b.val = b.val; omega
  | ⟨2, _⟩ => show 0 + 1 * n.val = n.val; omega

/-- an index of channel 4‥24 is the index (channel − 4, b, n) of the last piece. -/
theorem r4_emb (ch : Fin 25) (b : Fin 32) (n : Fin 4480) (h : 4 ≤ ch.val) :
    r4.emb (ix3 (⟨ch.val - 4, by omega⟩ : Fin 21) b n) = ix3 ch b n := by
  funext a; apply Fin.ext
  match a with
  | ⟨0, _⟩ => show 4 + 1 * (ch.val - 4) = ch.val; omega
  | ⟨1, _⟩ => show 0 + 1 * b.val = b.val; omega
  | ⟨2, _⟩ => show 0 + 1 * n.val = n.val; omega

/-- An index of a channel below a rectangle's first channel is not in it. -/
theorem not_mem_r4 (ch : Fin 25) (b : Fin 32) (n : Fin 4480) (h : ch.val < 4) : ix3 ch b n ∉ (r4 : Rect S25x32x4480).set := by
  intro hm
  rw [LoadRect.mem_set] at hm
  obtain ⟨j, _, e⟩ := hm ⟨0, by decide⟩
  have e' : ch.val = 4 + 1 * j := e
  omega

theorem not_mem_r3 (ch : Fin 25) (b : Fin 32) (n : Fin 4480) (h : ch.val < 3) : ix3 ch b n ∉ (r3 : Rect S25x32x4480).set := by
  intro hm
  rw [LoadRect.mem_set] at hm
  obtain ⟨j, _, e⟩ := hm ⟨0, by decide⟩
  have e' : ch.val = 3 + 1 * j := e
  omega

theorem not_mem_r2 (ch : Fin 25) (b : Fin 32) (n : Fin 4480) (h : ch.val < 2) : ix3 ch b n ∉ (r2 : Rect S25x32x4480).set := by
  intro hm
  rw [LoadRect.mem_set] at hm
  obtain ⟨j, _, e⟩ := hm ⟨0, by decide⟩
  have e' : ch.val = 2 + 1 * j := e
  omega

theorem not_mem_r1 (ch : Fin 25) (b : Fin 32) (n : Fin 4480) (h : ch.val < 1) : ix3 ch b n ∉ (r1 : Rect S25x32x4480).set := by
  intro hm
  rw [LoadRect.mem_set] at hm
  obtain ⟨j, _, e⟩ := hm ⟨0, by decide⟩
  have e' : ch.val = 1 + 1 * j := e
  omega

/-! ## The overlay of five pieces at an index, the stored values abstract -/

section Overlay

variable (p4 : r4.shape.Idx → Elt F .f32) (p3 : r3.shape.Idx → Elt F .f32) (p2 : r2.shape.Idx → Elt F .f32)
  (p1 : r1.shape.Idx → Elt F .f32) (p0 : r0.shape.Idx → Elt F .f32)

theorem canon_r4 (ch : Fin 25) (b : Fin 32) (n : Fin 4480) (h : 4 ≤ ch.val) :
    View.canon ([⟨r4, p4⟩, ⟨r3, p3⟩, ⟨r2, p2⟩, ⟨r1, p1⟩, ⟨r0, p0⟩] : List (View.Piece (Elt F) S25x32x4480 .f32)) (ix3 ch b n)
      = p4 (ix3 (⟨ch.val - 4, by omega⟩ : Fin 21) b n) := by
  refine (congrArg (View.canon _) (r4_emb ch b n h).symm).trans ?_
  exact View.canon_cons_emb r4 p4 _ _

theorem canon_r3 (ch : Fin 25) (b : Fin 32) (n : Fin 4480) (h : ch.val = 3) :
    View.canon ([⟨r4, p4⟩, ⟨r3, p3⟩, ⟨r2, p2⟩, ⟨r1, p1⟩, ⟨r0, p0⟩] : List (View.Piece (Elt F) S25x32x4480 .f32)) (ix3 ch b n)
      = p3 (ix3 (0 : Fin 1) b n) := by
  refine (View.canon_cons_of_not_mem (⟨r4, p4⟩ : View.Piece (Elt F) S25x32x4480 .f32) _ (not_mem_r4 ch b n (by omega))).trans ?_
  refine (congrArg (View.canon _) (r3_emb ch b n h).symm).trans ?_
  exact View.canon_cons_emb r3 p3 _ _

theorem canon_r2 (ch : Fin 25) (b : Fin 32) (n : Fin 4480) (h : ch.val = 2) :
    View.canon ([⟨r4, p4⟩, ⟨r3, p3⟩, ⟨r2, p2⟩, ⟨r1, p1⟩, ⟨r0, p0⟩] : List (View.Piece (Elt F) S25x32x4480 .f32)) (ix3 ch b n)
      = p2 (ix3 (0 : Fin 1) b n) := by
  refine (View.canon_cons_of_not_mem (⟨r4, p4⟩ : View.Piece (Elt F) S25x32x4480 .f32) _ (not_mem_r4 ch b n (by omega))).trans ?_
  refine (View.canon_cons_of_not_mem (⟨r3, p3⟩ : View.Piece (Elt F) S25x32x4480 .f32) _ (not_mem_r3 ch b n (by omega))).trans ?_
  refine (congrArg (View.canon _) (r2_emb ch b n h).symm).trans ?_
  exact View.canon_cons_emb r2 p2 _ _

theorem canon_r1 (ch : Fin 25) (b : Fin 32) (n : Fin 4480) (h : ch.val = 1) :
    View.canon ([⟨r4, p4⟩, ⟨r3, p3⟩, ⟨r2, p2⟩, ⟨r1, p1⟩, ⟨r0, p0⟩] : List (View.Piece (Elt F) S25x32x4480 .f32)) (ix3 ch b n)
      = p1 (ix3 (0 : Fin 1) b n) := by
  refine (View.canon_cons_of_not_mem (⟨r4, p4⟩ : View.Piece (Elt F) S25x32x4480 .f32) _ (not_mem_r4 ch b n (by omega))).trans ?_
  refine (View.canon_cons_of_not_mem (⟨r3, p3⟩ : View.Piece (Elt F) S25x32x4480 .f32) _ (not_mem_r3 ch b n (by omega))).trans ?_
  refine (View.canon_cons_of_not_mem (⟨r2, p2⟩ : View.Piece (Elt F) S25x32x4480 .f32) _ (not_mem_r2 ch b n (by omega))).trans ?_
  refine (congrArg (View.canon _) (r1_emb ch b n h).symm).trans ?_
  exact View.canon_cons_emb r1 p1 _ _

theorem canon_r0 (ch : Fin 25) (b : Fin 32) (n : Fin 4480) (h : ch.val = 0) :
    View.canon ([⟨r4, p4⟩, ⟨r3, p3⟩, ⟨r2, p2⟩, ⟨r1, p1⟩, ⟨r0, p0⟩] : List (View.Piece (Elt F) S25x32x4480 .f32)) (ix3 ch b n)
      = p0 (ix3 (0 : Fin 1) b n) := by
  refine (View.canon_cons_of_not_mem (⟨r4, p4⟩ : View.Piece (Elt F) S25x32x4480 .f32) _ (not_mem_r4 ch b n (by omega))).trans ?_
  refine (View.canon_cons_of_not_mem (⟨r3, p3⟩ : View.Piece (Elt F) S25x32x4480 .f32) _ (not_mem_r3 ch b n (by omega))).trans ?_
  refine (View.canon_cons_of_not_mem (⟨r2, p2⟩ : View.Piece (Elt F) S25x32x4480 .f32) _ (not_mem_r2 ch b n (by omega))).trans ?_
  refine (View.canon_cons_of_not_mem (⟨r1, p1⟩ : View.Piece (Elt F) S25x32x4480 .f32) _ (not_mem_r1 ch b n (by omega))).trans ?_
  refine (congrArg (View.canon _) (r0_emb ch b n h).symm).trans ?_
  exact View.canon_cons_emb r0 p0 _ _

end Overlay

/-! ## The decode by channel -/

theorem chan_zero (c : Nat) (h : c = 0) (x w h' : F .f32) :
    Cert.BoxDecode.chan c x w h' = FloatOps.mulf (FloatOps.addf x Cert.BoxDecode.one) w := by
  unfold Cert.BoxDecode.chan
  rw [if_pos h]

theorem chan_one (c : Nat) (h : c = 1) (x w h' : F .f32) :
    Cert.BoxDecode.chan c x w h' = FloatOps.mulf (FloatOps.addf x Cert.BoxDecode.one) h' := by
  have h0 : ¬c = 0 := by omega
  unfold Cert.BoxDecode.chan
  rw [if_neg h0, if_pos h]

theorem chan_two (c : Nat) (h : c = 2) (x w h' : F .f32) :
    Cert.BoxDecode.chan c x w h' = FloatOps.mulf (FloatOps.exp x) w := by
  have h0 : ¬c = 0 := by omega
  have h1 : ¬c = 1 := by omega
  unfold Cert.BoxDecode.chan
  rw [if_neg h0, if_neg h1, if_pos h]

theorem chan_three (c : Nat) (h : c = 3) (x w h' : F .f32) :
    Cert.BoxDecode.chan c x w h' = FloatOps.mulf (FloatOps.exp x) h' := by
  have h0 : ¬c = 0 := by omega
  have h1 : ¬c = 1 := by omega
  have h2 : ¬c = 2 := by omega
  unfold Cert.BoxDecode.chan
  rw [if_neg h0, if_neg h1, if_neg h2, if_pos h]

theorem chan_rest (c : Nat) (h : 4 ≤ c) (x w h' : F .f32) : Cert.BoxDecode.chan c x w h' = x := by
  have h0 : ¬c = 0 := by omega
  have h1 : ¬c = 1 := by omega
  have h2 : ¬c = 2 := by omega
  have h3 : ¬c = 3 := by omega
  unfold Cert.BoxDecode.chan
  rw [if_neg h0, if_neg h1, if_neg h2, if_neg h3]

/-! ## The output block at an index -/

/-- The block the body leaves, at channel ch, image b, prior n: the decode of the input element there and of the
    prior's width and height. -/
theorem outBlock_apply (x0 : Vec F S25x32x4480 .f32) (x1 : Vec F S4x4480 .f32) (ch : Fin 25) (b : Fin 32) (n : Fin 4480) :
    outBlock x0 x1 (ix3 ch b n)
      = Cert.BoxDecode.chan ch.val (x0 (ix3 ch b n)) (x1 (ix2 (2 : Fin 4) n)) (x1 (ix2 (3 : Fin 4) n)) := by
  unfold outBlock pieces
  by_cases c4 : 4 ≤ ch.val
  · refine (canon_r4 _ _ _ _ _ ch b n c4).trans ?_
    refine (pay2_apply _ _).trans ?_
    refine Eq.trans ?_ (chan_rest ch.val c4 _ _ _).symm
    exact congrArg x0 (r4_emb ch b n c4)
  by_cases c3 : ch.val = 3
  · refine (canon_r3 _ _ _ _ _ ch b n c3).trans ?_
    refine (pay1_apply _ _ b n).trans ?_
    refine Eq.trans ?_ (chan_three ch.val c3 _ _ _).symm
    refine congrArg₂ FloatOps.mulf (congrArg FloatOps.exp (congrArg x0 (r3_emb ch b n c3))) ?_
    exact (pay4_apply _ _).trans (ld_qH x1 n)
  by_cases c2 : ch.val = 2
  · refine (canon_r2 _ _ _ _ _ ch b n c2).trans ?_
    refine (pay7_apply _ _ b n).trans ?_
    refine Eq.trans ?_ (chan_two ch.val c2 _ _ _).symm
    exact congrArg₂ FloatOps.mulf (congrArg FloatOps.exp (congrArg x0 (r2_emb ch b n c2))) (ld_qW x1 n)
  by_cases c1 : ch.val = 1
  · refine (canon_r1 _ _ _ _ _ ch b n c1).trans ?_
    refine (pay6_apply _ _ b n).trans ?_
    refine Eq.trans ?_ (chan_one ch.val c1 _ _ _).symm
    exact congrArg₂ FloatOps.mulf (congrArg₂ FloatOps.addf (congrArg x0 (r1_emb ch b n c1)) rfl) (ld_qH x1 n)
  · have c0 : ch.val = 0 := by omega
    refine (canon_r0 _ _ _ _ _ ch b n c0).trans ?_
    refine (pay5_apply _ _ b n).trans ?_
    refine Eq.trans ?_ (chan_zero ch.val c0 _ _ _).symm
    exact congrArg₂ FloatOps.mulf (congrArg₂ FloatOps.addf (congrArg x0 (r0_emb ch b n c0)) rfl) (ld_qW x1 n)

end Cert.Kernel.Hand

end
-- ==== Proof.BitsRun.lean ====
/-
  The run of the whole program around the kernel: the proof data of the pipeline, the body at every grid point, and
  the frame.

  The 20000 priors are cut into five blocks of 4480; the last block overhangs the arrays by 2400 priors. A fetch of
  an overhanging block fills only the part of the staging buffer that lies inside the array; the rest of the buffer
  holds values nothing names. The body computes on the whole buffer, those values included, but every output
  element depends only on the input elements of ITS OWN prior, so on the priors inside the array the output block is
  determined by the parts of the input blocks inside the array — and that part is all the write-back moves.
  (The program as printed, before idealization, has the same body under its own names; this module states for it
  what the idealized program's module states.)
-/
import proofs.«129822_g62637803045608_cont_9to1c4b_476_15_alg».proof.Proof.BitsBody
import proofs.«129822_g62637803045608_cont_9to1c4b_476_15_alg».proof.Proof.BitsPayload
import proofs.«129822_g62637803045608_cont_9to1c4b_476_15_alg».proof.Proof.Gen.Kernel.Frame

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which part of a block a transfer moves -/

/-- The input block and the output block are cut alike at every point. -/
theorem xsize_in_out (t : Fin cfg0.N) (a : Fin 3) : win0_0.xsize (grid0.coords t) a = win0_2.xsize (grid0.coords t) a :=
  (by decide +kernel : ∀ (t : Fin grid0.N) (a : Fin 3), win0_0.xsize (grid0.coords t) a = win0_2.xsize (grid0.coords t) a) t a
/-- The prior block keeps its four rows and is cut on the priors as the output block is. -/
theorem xsize_prior (t : Fin cfg0.N) : win0_1.xsize (grid0.coords t) 0 = 4 ∧ win0_1.xsize (grid0.coords t) 1 = win0_2.xsize (grid0.coords t) 2 :=
  (by decide +kernel : ∀ t : Fin grid0.N, win0_1.xsize (grid0.coords t) 0 = 4 ∧ win0_1.xsize (grid0.coords t) 1 = win0_2.xsize (grid0.coords t) 2) t

/-- Two contents that agree wherever the transfer moves have the same moved part. -/
theorem cut_eq_of_agree {G : Pipeline.Grid} (w : Window sig G) {α : Type} (i : G.Coords) {X Y : w.block.Idx → α}
    (h : ∀ y, w.moved i y = true → X y = Y y) : w.cut i X = w.cut i Y :=
  funext fun j => h _ (w.moved_xinj i j)

/-- On the moved part a filled block is the filling, whatever it was filled over. -/
theorem fill_agree {G : Pipeline.Grid} (w : Window sig G) {α : Type} (i : G.Coords) (d d' : w.block.Idx → α) (g : (w.xblock i).Idx → α)
    {y : w.block.Idx} (h : w.moved i y = true) : w.fill i d g y = w.fill i d' g y := by
  unfold Window.fill; rw [dif_pos h, dif_pos h]

/-- THE LOCALITY OF THE BODY: if two pairs of input blocks agree on the parts inside the arrays, so do the output
    blocks the body makes of them. -/
theorem cut_outBlock_congr (t : Fin cfg0.N) (X0 Y0 : Vec F S25x32x4480 .f32) (X1 Y1 : Vec F S4x4480 .f32)
    (h0 : ∀ y, win0_0.moved (grid0.coords t) y = true → X0 y = Y0 y)
    (h1 : ∀ y, win0_1.moved (grid0.coords t) y = true → X1 y = Y1 y) :
    win0_2.cut (grid0.coords t) (outBlock X0 X1) = win0_2.cut (grid0.coords t) (outBlock Y0 Y1) := by
  refine cut_eq_of_agree win0_2 (grid0.coords t) fun (y : S25x32x4480.Idx) hy => ?_
  have hy' := (win0_2.moved_iff (grid0.coords t) y).mp hy
  have e0 : X0 y = Y0 y := h0 y ((win0_0.moved_iff (grid0.coords t) y).mpr fun a => by rw [xsize_in_out t a]; exact hy' a)
  obtain ⟨ch, b, n, rfl⟩ : ∃ (ch : Fin 25) (b : Fin 32) (n : Fin 4480), y = ix3 ch b n :=
    ⟨y 0, y 1, y 2, eq_ix3 (n0 := 25) (n1 := 32) (n2 := 4480) y⟩
  have e1 : ∀ k : Fin 4, X1 (ix2 k n) = Y1 (ix2 k n) := fun k =>
    h1 _ ((win0_1.moved_iff (grid0.coords t) (ix2 k n)).mpr fun a => by
      match a with
      | ⟨0, _⟩ => show k.val < win0_1.xsize (grid0.coords t) 0; rw [(xsize_prior t).1]; exact k.isLt
      | ⟨1, _⟩ => show n.val < win0_1.xsize (grid0.coords t) 1; rw [(xsize_prior t).2]; exact hy' 2)
  rw [outBlock_apply, outBlock_apply, e0, e1 2, e1 3]

/-! ## The pipeline's proof data -/

/-- The float zero word, the filler of what nothing names. -/
abbrev zw : Elt F .f32 := FloatOps.ofBits .f32 0#32

/-- The input block at point `t` as a whole buffer: the array's block on the part inside the array, zero past it. -/
def in0 (c : Dev nD) (t : Fin cfg0.N) : Vec F S25x32x4480 .f32 :=
  win0_0.fill (grid0.coords t) (fun _ => zw) (iblk m c 0 t)
/-- The prior block likewise. -/
def in1 (c : Dev nD) (t : Fin cfg0.N) : Vec F S4x4480 .f32 :=
  win0_1.fill (grid0.coords t) (fun _ => zw) (iblk m c 1 t)

/-- The proof data of the one pipeline on core `c`: the arrays as the region finds them; after the body at point `t`
    the inputs' buffers at their blocks and the output's at `outBlock` of them (each stated, as every window here is
    cut at the arrays' end, on the part inside the array only); the invariant the scoped rest; nothing owed. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => outBlock (in0 m c t) (in1 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = in0 m c t := by dsimp only [dats]
theorem after_1 (c : Dev nD) (t : Fin cfg0.N) : (dats m 0 c).after 1 t = in1 m c t := by dsimp only [dats]
theorem after_2 (c : Dev nD) (t : Fin cfg0.N) : (dats m 0 c).after 2 t = outBlock (in0 m c t) (in1 m c t) := by dsimp only [dats]

/-- What the body finds: each input's buffer just fetched — its block inside the array, `d` past it —, -/
theorem before_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]
theorem before_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk; rw [A_eq]
/-- the output's buffer at anything: every point writes it back. -/
theorem before_2 (c : Dev nD) (t : Fin cfg0.N) (d) : (dats m 0 c).before 2 t d = d := by
  refine (dats m 0 c).before_out_reset 2 rfl t ?_ d
  by_cases h0 : t.val = 0
  · exact .inl h0
  · exact .inr ⟨h0, flush0_2 _⟩

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: each buffer stated on the part its transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t)))))

/-- The body at any point. The inputs' buffers hold their blocks filled out past the arrays' end with whatever the
    fetch left there; the body leaves them so and the output's buffer at `outBlock` of them, which on the part inside
    the array is `outBlock` of the zero-filled blocks (the locality of the body). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  rw [before_0 m c t d0, before_1 m c t d1, before_2 m c t d2]
  iapply (sound_kernel c Set.univ (grid0.coords t) _ _ _ _ _ _
    (win0_0.fill (grid0.coords t) d0 (iblk m c 0 t)) (win0_1.fill (grid0.coords t) d1 (iblk m c 1 t)) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · iexists d0
    unfold in0; rw [Window.cut_fill]; iexact H0
  isplitl [H1]
  · iexists d1
    unfold in1; rw [Window.cut_fill]; iexact H1
  · iexists outBlock (win0_0.fill (grid0.coords t) d0 (iblk m c 0 t)) (win0_1.fill (grid0.coords t) d1 (iblk m c 1 t))
    rw [← cut_outBlock_congr t (win0_0.fill (grid0.coords t) d0 (iblk m c 0 t)) (in0 m c t)
        (win0_1.fill (grid0.coords t) d1 (iblk m c 1 t)) (in1 m c t)
        (fun y hy => fill_agree win0_0 (grid0.coords t) d0 _ (iblk m c 0 t) hy)
        (fun y hy => fill_agree win0_1 (grid0.coords t) d1 _ (iblk m c 1 t) hy),
      Window.fill_cut]
    iexact H2

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, every array of the pipeline ends at what the write-backs of the proof data make of it, and every
    other buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.IdealStores.lean ====
/-
  What the kernel body leaves in the output block, as a function of the two input blocks.

  The body works on a block of 4480 priors: `x0` is the block of the channel-major input (25 channels, 32 images,
  4480 priors), `x1` the block of the transposed prior table (4 rows, 4480 priors). It makes five stores into the
  output block: channels 0, 1, 2, 3 one plane each, then channels 4‥24 in one piece. The five rectangles tile the
  block, so the block ends as the overlay of the five payloads.
-/
import proofs.«129822_g62637803045608_cont_9to1c4b_476_15_alg».proof.Proof.Gen.KernelIdeal.Skeleton
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The rectangles the body reads and writes through -/

/-- Row 2 of the prior block: the widths. -/
abbrev qW : Rect S4x4480 := Rect.unit (s := S4x4480) ![2, 0] S1x4480.size inb_S4x4480_S1x4480_2_0
/-- Row 3 of the prior block: the heights. -/
abbrev qH : Rect S4x4480 := Rect.unit (s := S4x4480) ![3, 0] S1x4480.size inb_S4x4480_S1x4480_3_0
/-- Channel planes 0, 1, 2, 3 of a [25, 32, 4480] block, -/
abbrev r0 : Rect S25x32x4480 := Rect.unit (s := S25x32x4480) ![0, 0, 0] S1x32x4480.size inb_S25x32x4480_S1x32x4480_0_0_0
abbrev r1 : Rect S25x32x4480 := Rect.unit (s := S25x32x4480) ![1, 0, 0] S1x32x4480.size inb_S25x32x4480_S1x32x4480_1_0_0
abbrev r2 : Rect S25x32x4480 := Rect.unit (s := S25x32x4480) ![2, 0, 0] S1x32x4480.size inb_S25x32x4480_S1x32x4480_2_0_0
abbrev r3 : Rect S25x32x4480 := Rect.unit (s := S25x32x4480) ![3, 0, 0] S1x32x4480.size inb_S25x32x4480_S1x32x4480_3_0_0
/-- and channels 4‥24. -/
abbrev r4 : Rect S25x32x4480 := Rect.unit (s := S25x32x4480) ![4, 0, 0] S21x32x4480.size inb_S25x32x4480_S21x32x4480_4_0_0

/-! ## The five stores -/

/-- The body's stores, latest first, over the input blocks `x0` and `x1`. -/
def pieces (x0 : Vec F S25x32x4480 .f32) (x1 : Vec F S4x4480 .f32) : List (View.Piece (Elt F) S25x32x4480 .f32) :=
  [⟨r4, k0_pay2 (View.ld x0 r4)⟩,
   ⟨r3, k0_pay1 (k0_pay4 (View.ld x1 qH)) (View.ld x0 r3)⟩,
   ⟨r2, k0_pay7 (View.ld x1 qW) (View.ld x0 r2)⟩,
   ⟨r1, k0_pay6 (View.ld x1 qH) (View.ld x0 r1)⟩,
   ⟨r0, k0_pay5 (View.ld x1 qW) (View.ld x0 r0)⟩]

/-- The output block after the body. -/
def outBlock (x0 : Vec F S25x32x4480 .f32) (x1 : Vec F S4x4480 .f32) : Vec F S25x32x4480 .f32 :=
  View.canon (pieces x0 x1)

/-- An index of the block lies in the rectangle of its channel: planes 0‥3 one each, the rest in the last. -/
theorem cover' (p4 : r4.shape.Idx → Elt F .f32) (p3 : r3.shape.Idx → Elt F .f32) (p2 : r2.shape.Idx → Elt F .f32)
    (p1 : r1.shape.Idx → Elt F .f32) (p0 : r0.shape.Idx → Elt F .f32) (y : S25x32x4480.Idx) :
    ∃ pc ∈ ([⟨r4, p4⟩, ⟨r3, p3⟩, ⟨r2, p2⟩, ⟨r1, p1⟩, ⟨r0, p0⟩] : List (View.Piece (Elt F) S25x32x4480 .f32)), y ∈ pc.1.set := by
  have h0 : (y 0 : Nat) < 25 := (y 0).isLt
  have h1 : (y 1 : Nat) < 32 := (y 1).isLt
  have h2 : (y 2 : Nat) < 4480 := (y 2).isLt
  have mem : ∀ (r : Rect S25x32x4480) (o n : Nat), r.off = ![o, 0, 0] → r.size = ![n, 32, 4480] → (∀ a, r.stride a = 1) →
      o ≤ (y 0 : Nat) → (y 0 : Nat) < o + n → y ∈ r.set := by
    intro r o n ho hn hs hlo hhi
    rw [LoadRect.mem_set]; intro a
    match a with
    | ⟨0, _⟩ => exact ⟨(y 0 : Nat) - o, by rw [hn]; show _ < n; omega, by rw [ho, hs]; show (y 0 : Nat) = o + 1 * ((y 0 : Nat) - o); omega⟩
    | ⟨1, _⟩ => exact ⟨(y 1 : Nat), by rw [hn]; show _ < 32; omega, by rw [ho, hs]; show (y 1 : Nat) = 0 + 1 * (y 1 : Nat); omega⟩
    | ⟨2, _⟩ => exact ⟨(y 2 : Nat), by rw [hn]; show _ < 4480; omega, by rw [ho, hs]; show (y 2 : Nat) = 0 + 1 * (y 2 : Nat); omega⟩
  by_cases c4 : 4 ≤ (y 0 : Nat)
  · exact ⟨_, List.mem_cons_self, mem r4 4 21 rfl rfl (fun _ => rfl) c4 (by omega)⟩
  by_cases c3 : (y 0 : Nat) = 3
  · exact ⟨_, List.mem_cons_of_mem _ List.mem_cons_self, mem r3 3 1 rfl rfl (fun _ => rfl) (by omega) (by omega)⟩
  by_cases c2 : (y 0 : Nat) = 2
  · exact ⟨_, List.mem_cons_of_mem _ (List.mem_cons_of_mem _ List.mem_cons_self), mem r2 2 1 rfl rfl (fun _ => rfl) (by omega) (by omega)⟩
  by_cases c1 : (y 0 : Nat) = 1
  · exact ⟨_, List.mem_cons_of_mem _ (List.mem_cons_of_mem _ (List.mem_cons_of_mem _ List.mem_cons_self)), mem r1 1 1 rfl rfl (fun _ => rfl) (by omega) (by omega)⟩
  · exact ⟨_, List.mem_cons_of_mem _ (List.mem_cons_of_mem _ (List.mem_cons_of_mem _ (List.mem_cons_of_mem _ List.mem_cons_self))), mem r0 0 1 rfl rfl (fun _ => rfl) (by omega) (by omega)⟩

theorem cover (x0 : Vec F S25x32x4480 .f32) (x1 : Vec F S4x4480 .f32) (y : S25x32x4480.Idx) :
    ∃ pc ∈ pieces x0 x1, y ∈ pc.1.set := cover' _ _ _ _ _ y

end Cert.KernelIdeal.Hand

end
-- ==== Proof.IdealBody.lean ====
/-
  The kernel body run on whole staging buffers.

  Started with the input block `x0`, the prior block `x1` and ANY contents of the output buffer, the body ends with
  the two inputs untouched and the output buffer holding `outBlock x0 x1`: it loads the width and height rows and the
  channel planes, never uses what it loads from the output buffer, and its five stores cover the output block.
-/
import proofs.«129822_g62637803045608_cont_9to1c4b_476_15_alg».proof.Proof.IdealStores
import proofs.«129822_g62637803045608_cont_9to1c4b_476_15_alg».proof.Proof.Gen.KernelIdeal.Launch
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple: inputs kept, the output buffer at `outBlock` of them whatever it held. -/
theorem sound_kernel (c : Dev nD) (E : Set ℕ) (i : grid0.Coords)
    (arg1 : Memref sig .tc .vmem S25x32x4480 .f32) (harg1 : arg1.IsWhole) (arg2 : Memref sig .tc .vmem S4x4480 .f32) (harg2 : arg2.IsWhole)
    (arg3 : Memref sig .tc .vmem S25x32x4480 .f32) (harg3 : arg3.IsWhole)
    (x0 : Vec F S25x32x4480 .f32) (x1 : Vec F S4x4480 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
              ∗ owns (c : Thread nD τ) arg3 fullShare (outBlock x0 x1)) -∗ K ⟨⟩))
      ⊢ wp frame (wpE (defs₀ (F := F)) Variants.none c none) E (cc0__decode_block i arg1 harg1 arg2 harg2 arg3 harg3) K := by
  simp only [cc0__decode_block_eq_skeleton]; unfold cc0__decode_block_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  unfold outBlock pieces
  exact View.read_writes_eq_canon _ _ _ (cover' _ _ _ _ _)

end Cert.KernelIdeal.Hand

end
-- ==== Proof.IdealPayload.lean ====
/-
  The output block of the kernel body, read at an index.

  The body stores five pieces into its [25, 32, 4480] output block: the planes of channels 0, 1, 2, 3, each a
  pointwise function of the same plane of the input block and of one row of the prior block (row 2, the widths, or
  row 3, the heights), and channels 4‥24 copied unchanged. Every vector operation in the stored values is pointwise
  and every layout operation (dropping or adding the leading unit axis, repeating a [1, 4480] row over the 32 images)
  reads one element of its operand, so the block at (channel, image, prior) is the box decode of the input element
  there and of that prior's width and height — for every float instance.
-/
import proofs.«129822_g62637803045608_cont_9to1c4b_476_15_alg».proof.Proof.IdealStores
import proofs.«129822_g62637803045608_cont_9to1c4b_476_15_alg».proof.Proof.Decode
import Idealize.ShloMosaic.Lib.ValueIdx
import Idealize.ShloMosaic.Lib.Pipeline.Value

set_option maxRecDepth 16384

noncomputable section

namespace Cert.KernelIdeal.Hand

open Cert.KernelIdeal Cert.KernelIdeal.Gen Idealize.ShloMosaic Idealize.ShloMosaic.ValueIdx

variable {F : FTy → Type} [FloatOps F]

/-! ## Row-major positions: a [1, 32, 4480] index (0, b, n) and the [32, 4480] index (b, n) are the same place -/

theorem rowMajor_plane (b : Fin 32) (n : Fin 4480) :
    (S32x4480.rowMajor (ix2 b n)).val = (S1x32x4480.rowMajor (ix3 (0 : Fin 1) b n)).val := by
  rw [Shape.rowMajor_val_two, Shape.rowMajor_val_three]
  show b.val * 4480 + n.val = ((0 : Nat) * 32 + b.val) * 4480 + n.val
  omega

/-- A [1, 32, 4480] plane viewed [32, 4480] reads (b, n) at (0, b, n). -/
theorem dropUnit_apply {α : Type} (v : S1x32x4480.Idx → α) (b : Fin 32) (n : Fin 4480) :
    shapeCast S32x4480 v shapeCasts_S1x32x4480_S32x4480 (ix2 b n) = v (ix3 (0 : Fin 1) b n) :=
  shapeCast_apply v shapeCasts_S1x32x4480_S32x4480 (ix2 b n) (ix3 (0 : Fin 1) b n) (rowMajor_plane b n).symm

/-- A [32, 4480] value stored as a [1, 32, 4480] plane reads (0, b, n) at (b, n). -/
theorem addUnit_apply {α : Type} (v : S32x4480.Idx → α) (b : Fin 32) (n : Fin 4480) :
    shapeCast S1x32x4480 v shapeCasts_S32x4480_S1x32x4480 (ix3 (0 : Fin 1) b n) = v (ix2 b n) :=
  shapeCast_apply v shapeCasts_S32x4480_S1x32x4480 (ix3 (0 : Fin 1) b n) (ix2 b n) (rowMajor_plane b n)

/-- A [1, 4480] row repeated over the 32 images reads (b, n) at (0, n). -/
theorem row_apply {α : Type} (v : S1x4480.Idx → α) (b : Fin 32) (n : Fin 4480) :
    broadcastTo S32x4480 v broadcasts_S1x4480_S32x4480 (ix2 b n) = v (ix2 (0 : Fin 1) n) :=
  broadcastTo_apply v broadcasts_S1x4480_S32x4480 (ix2 b n) (ix2 (0 : Fin 1) n) fun a =>
    match a with
    | ⟨0, _⟩ => rfl
    | ⟨1, _⟩ => rfl

/-! ## The stored values at an index -/

/-- The prior rows pass through a cast to their own shape. -/
theorem pay3_apply (v0 : Vec F S1x4480 .f32) (i : S1x4480.Idx) : k0_pay3 v0 i = v0 i := by
  unfold k0_pay3
  exact congrFun (shapeCast_self v0 shapeCasts_S1x4480_S1x4480) i

theorem pay4_apply (v2 : Vec F S1x4480 .f32) (i : S1x4480.Idx) : k0_pay4 v2 i = v2 i := by
  unfold k0_pay4
  exact congrFun (shapeCast_self v2 shapeCasts_S1x4480_S1x4480) i

/-- Channels 4‥24 pass through a cast to their own shape. -/
theorem pay2_apply (v38 : Vec F S21x32x4480 .f32) (i : S21x32x4480.Idx) : k0_pay2 v38 i = v38 i := by
  unfold k0_pay2
  exact congrFun (shapeCast_self v38 shapeCasts_S21x32x4480_S21x32x4480) i

/-- Channel 0: (x + 1) · width. -/
theorem pay5_apply (v0 : Vec F S1x4480 .f32) (v4 : Vec F S1x32x4480 .f32) (b : Fin 32) (n : Fin 4480) :
    k0_pay5 v0 v4 (ix3 (0 : Fin 1) b n)
      = FloatOps.mulf (FloatOps.addf (v4 (ix3 (0 : Fin 1) b n)) Cert.BoxDecode.one) (v0 (ix2 (0 : Fin 1) n)) := by
  unfold k0_pay5
  refine (addUnit_apply _ b n).trans ?_
  refine congrArg₂ FloatOps.mulf (congrArg₂ FloatOps.addf (dropUnit_apply v4 b n) rfl) ?_
  exact (row_apply (k0_pay3 v0) b n).trans (pay3_apply v0 _)

/-- Channel 1: (x + 1) · height. -/
theorem pay6_apply (v2 : Vec F S1x4480 .f32) (v13 : Vec F S1x32x4480 .f32) (b : Fin 32) (n : Fin 4480) :
    k0_pay6 v2 v13 (ix3 (0 : Fin 1) b n)
      = FloatOps.mulf (FloatOps.addf (v13 (ix3 (0 : Fin 1) b n)) Cert.BoxDecode.one) (v2 (ix2 (0 : Fin 1) n)) := by
  unfold k0_pay6
  refine (addUnit_apply _ b n).trans ?_
  refine congrArg₂ FloatOps.mulf (congrArg₂ FloatOps.addf (dropUnit_apply v13 b n) rfl) ?_
  exact (row_apply (k0_pay4 v2) b n).trans (pay4_apply v2 _)

/-- Channel 2: exp x · width. -/
theorem pay7_apply (v0 : Vec F S1x4480 .f32) (v22 : Vec F S1x32x4480 .f32) (b : Fin 32) (n : Fin 4480) :
    k0_pay7 v0 v22 (ix3 (0 : Fin 1) b n)
      = FloatOps.mulf (FloatOps.exp (v22 (ix3 (0 : Fin 1) b n))) (v0 (ix2 (0 : Fin 1) n)) := by
  unfold k0_pay7
  refine (addUnit_apply _ b n).trans ?_
  refine congrArg₂ FloatOps.mulf (congrArg FloatOps.exp (dropUnit_apply v22 b n)) ?_
  exact (row_apply (k0_pay3 v0) b n).trans (pay3_apply v0 _)

/-- Channel 3: exp x · height (the height row as the earlier part of the body hands it on). -/
theorem pay1_apply (v3 : FVec F S1x4480 .f32) (v30 : Vec F S1x32x4480 .f32) (b : Fin 32) (n : Fin 4480) :
    k0_pay1 v3 v30 (ix3 (0 : Fin 1) b n)
      = FloatOps.mulf (FloatOps.exp (v30 (ix3 (0 : Fin 1) b n))) (v3 (ix2 (0 : Fin 1) n)) := by
  unfold k0_pay1
  refine (addUnit_apply _ b n).trans ?_
  exact congrArg₂ FloatOps.mulf (congrArg FloatOps.exp (dropUnit_apply v30 b n)) (row_apply v3 b n)

/-! ## Where the rectangles sit -/

/-- Row 2 of the prior block at prior n. -/
theorem qW_emb (n : Fin 4480) : qW.emb (ix2 (0 : Fin 1) n) = ix2 (2 : Fin 4) n := by
  funext a; apply Fin.ext
  match a with
  | ⟨0, _⟩ => rfl
  | ⟨1, _⟩ => show 0 + 1 * n.val = n.val; omega

/-- Row 3 of the prior block at prior n. -/
theorem qH_emb (n : Fin 4480) : qH.emb (ix2 (0 : Fin 1) n) = ix2 (3 : Fin 4) n := by
  funext a; apply Fin.ext
  match a with
  | ⟨0, _⟩ => rfl
  | ⟨1, _⟩ => show 0 + 1 * n.val = n.val; omega

theorem ld_qW (x1 : Vec F S4x4480 .f32) (n : Fin 4480) : View.ld x1 qW (ix2 (0 : Fin 1) n) = x1 (ix2 (2 : Fin 4) n) :=
  congrArg x1 (qW_emb n)

theorem ld_qH (x1 : Vec F S4x4480 .f32) (n : Fin 4480) : View.ld x1 qH (ix2 (0 : Fin 1) n) = x1 (ix2 (3 : Fin 4) n) :=
  congrArg x1 (qH_emb n)

/-- An index of channel 0, 1, 2, 3 is the index (0, b, n) of that channel's plane; -/
theorem r0_emb (ch : Fin 25) (b : Fin 32) (n : Fin 4480) (h : ch.val = 0) : r0.emb (ix3 (0 : Fin 1) b n) = ix3 ch b n := by
  funext a; apply Fin.ext
  match a with
  | ⟨0, _⟩ => show 0 + 1 * 0 = ch.val; omega
  | ⟨1, _⟩ => show 0 + 1 * b.val = b.val; omega
  | ⟨2, _⟩ => show 0 + 1 * n.val = n.val; omega

theorem r1_emb (ch : Fin 25) (b : Fin 32) (n : Fin 4480) (h : ch.val = 1) : r1.emb (ix3 (0 : Fin 1) b n) = ix3 ch b n := by
  funext a; apply Fin.ext
  match a with
  | ⟨0, _⟩ => show 1 + 1 * 0 = ch.val; omega
  | ⟨1, _⟩ => show 0 + 1 * b.val = b.val; omega
  | ⟨2, _⟩ => show 0 + 1 * n.val = n.val; omega

theorem r2_emb (ch : Fin 25) (b : Fin 32) (n : Fin 4480) (h : ch.val = 2) : r2.emb (ix3 (0 : Fin 1) b n) = ix3 ch b n := by
  funext a; apply Fin.ext
  match a with
  | ⟨0, _⟩ => show 2 + 1 * 0 = ch.val; omega
  | ⟨1, _⟩ => show 0 + 1 * b.val = b.val; omega
  | ⟨2, _⟩ => show 0 + 1 * n.val = n.val; omega

theorem r3_emb (ch : Fin 25) (b : Fin 32) (n : Fin 4480) (h : ch.val = 3) : r3.emb (ix3 (0 : Fin 1) b n) = ix3 ch b n := by
  funext a; apply Fin.ext
  match a with
  | ⟨0, _⟩ => show 3 + 1 * 0 = ch.val; omega
  | ⟨1, _⟩ => show 0 + 1 * b.val = b.val; omega
  | ⟨2, _⟩ => show 0 + 1 * n.val = n.val; omega

/-- an index of channel 4‥24 is the index (channel − 4, b, n) of the last piece. -/
theorem r4_emb (ch : Fin 25) (b : Fin 32) (n : Fin 4480) (h : 4 ≤ ch.val) :
    r4.emb (ix3 (⟨ch.val - 4, by omega⟩ : Fin 21) b n) = ix3 ch b n := by
  funext a; apply Fin.ext
  match a with
  | ⟨0, _⟩ => show 4 + 1 * (ch.val - 4) = ch.val; omega
  | ⟨1, _⟩ => show 0 + 1 * b.val = b.val; omega
  | ⟨2, _⟩ => show 0 + 1 * n.val = n.val; omega

/-- An index of a channel below a rectangle's first channel is not in it. -/
theorem not_mem_r4 (ch : Fin 25) (b : Fin 32) (n : Fin 4480) (h : ch.val < 4) : ix3 ch b n ∉ (r4 : Rect S25x32x4480).set := by
  intro hm
  rw [LoadRect.mem_set] at hm
  obtain ⟨j, _, e⟩ := hm ⟨0, by decide⟩
  have e' : ch.val = 4 + 1 * j := e
  omega

theorem not_mem_r3 (ch : Fin 25) (b : Fin 32) (n : Fin 4480) (h : ch.val < 3) : ix3 ch b n ∉ (r3 : Rect S25x32x4480).set := by
  intro hm
  rw [LoadRect.mem_set] at hm
  obtain ⟨j, _, e⟩ := hm ⟨0, by decide⟩
  have e' : ch.val = 3 + 1 * j := e
  omega

theorem not_mem_r2 (ch : Fin 25) (b : Fin 32) (n : Fin 4480) (h : ch.val < 2) : ix3 ch b n ∉ (r2 : Rect S25x32x4480).set := by
  intro hm
  rw [LoadRect.mem_set] at hm
  obtain ⟨j, _, e⟩ := hm ⟨0, by decide⟩
  have e' : ch.val = 2 + 1 * j := e
  omega

theorem not_mem_r1 (ch : Fin 25) (b : Fin 32) (n : Fin 4480) (h : ch.val < 1) : ix3 ch b n ∉ (r1 : Rect S25x32x4480).set := by
  intro hm
  rw [LoadRect.mem_set] at hm
  obtain ⟨j, _, e⟩ := hm ⟨0, by decide⟩
  have e' : ch.val = 1 + 1 * j := e
  omega

/-! ## The overlay of five pieces at an index, the stored values abstract -/

section Overlay

variable (p4 : r4.shape.Idx → Elt F .f32) (p3 : r3.shape.Idx → Elt F .f32) (p2 : r2.shape.Idx → Elt F .f32)
  (p1 : r1.shape.Idx → Elt F .f32) (p0 : r0.shape.Idx → Elt F .f32)

theorem canon_r4 (ch : Fin 25) (b : Fin 32) (n : Fin 4480) (h : 4 ≤ ch.val) :
    View.canon ([⟨r4, p4⟩, ⟨r3, p3⟩, ⟨r2, p2⟩, ⟨r1, p1⟩, ⟨r0, p0⟩] : List (View.Piece (Elt F) S25x32x4480 .f32)) (ix3 ch b n)
      = p4 (ix3 (⟨ch.val - 4, by omega⟩ : Fin 21) b n) := by
  refine (congrArg (View.canon _) (r4_emb ch b n h).symm).trans ?_
  exact View.canon_cons_emb r4 p4 _ _

theorem canon_r3 (ch : Fin 25) (b : Fin 32) (n : Fin 4480) (h : ch.val = 3) :
    View.canon ([⟨r4, p4⟩, ⟨r3, p3⟩, ⟨r2, p2⟩, ⟨r1, p1⟩, ⟨r0, p0⟩] : List (View.Piece (Elt F) S25x32x4480 .f32)) (ix3 ch b n)
      = p3 (ix3 (0 : Fin 1) b n) := by
  refine (View.canon_cons_of_not_mem (⟨r4, p4⟩ : View.Piece (Elt F) S25x32x4480 .f32) _ (not_mem_r4 ch b n (by omega))).trans ?_
  refine (congrArg (View.canon _) (r3_emb ch b n h).symm).trans ?_
  exact View.canon_cons_emb r3 p3 _ _

theorem canon_r2 (ch : Fin 25) (b : Fin 32) (n : Fin 4480) (h : ch.val = 2) :
    View.canon ([⟨r4, p4⟩, ⟨r3, p3⟩, ⟨r2, p2⟩, ⟨r1, p1⟩, ⟨r0, p0⟩] : List (View.Piece (Elt F) S25x32x4480 .f32)) (ix3 ch b n)
      = p2 (ix3 (0 : Fin 1) b n) := by
  refine (View.canon_cons_of_not_mem (⟨r4, p4⟩ : View.Piece (Elt F) S25x32x4480 .f32) _ (not_mem_r4 ch b n (by omega))).trans ?_
  refine (View.canon_cons_of_not_mem (⟨r3, p3⟩ : View.Piece (Elt F) S25x32x4480 .f32) _ (not_mem_r3 ch b n (by omega))).trans ?_
  refine (congrArg (View.canon _) (r2_emb ch b n h).symm).trans ?_
  exact View.canon_cons_emb r2 p2 _ _

theorem canon_r1 (ch : Fin 25) (b : Fin 32) (n : Fin 4480) (h : ch.val = 1) :
    View.canon ([⟨r4, p4⟩, ⟨r3, p3⟩, ⟨r2, p2⟩, ⟨r1, p1⟩, ⟨r0, p0⟩] : List (View.Piece (Elt F) S25x32x4480 .f32)) (ix3 ch b n)
      = p1 (ix3 (0 : Fin 1) b n) := by
  refine (View.canon_cons_of_not_mem (⟨r4, p4⟩ : View.Piece (Elt F) S25x32x4480 .f32) _ (not_mem_r4 ch b n (by omega))).trans ?_
  refine (View.canon_cons_of_not_mem (⟨r3, p3⟩ : View.Piece (Elt F) S25x32x4480 .f32) _ (not_mem_r3 ch b n (by omega))).trans ?_
  refine (View.canon_cons_of_not_mem (⟨r2, p2⟩ : View.Piece (Elt F) S25x32x4480 .f32) _ (not_mem_r2 ch b n (by omega))).trans ?_
  refine (congrArg (View.canon _) (r1_emb ch b n h).symm).trans ?_
  exact View.canon_cons_emb r1 p1 _ _

theorem canon_r0 (ch : Fin 25) (b : Fin 32) (n : Fin 4480) (h : ch.val = 0) :
    View.canon ([⟨r4, p4⟩, ⟨r3, p3⟩, ⟨r2, p2⟩, ⟨r1, p1⟩, ⟨r0, p0⟩] : List (View.Piece (Elt F) S25x32x4480 .f32)) (ix3 ch b n)
      = p0 (ix3 (0 : Fin 1) b n) := by
  refine (View.canon_cons_of_not_mem (⟨r4, p4⟩ : View.Piece (Elt F) S25x32x4480 .f32) _ (not_mem_r4 ch b n (by omega))).trans ?_
  refine (View.canon_cons_of_not_mem (⟨r3, p3⟩ : View.Piece (Elt F) S25x32x4480 .f32) _ (not_mem_r3 ch b n (by omega))).trans ?_
  refine (View.canon_cons_of_not_mem (⟨r2, p2⟩ : View.Piece (Elt F) S25x32x4480 .f32) _ (not_mem_r2 ch b n (by omega))).trans ?_
  refine (View.canon_cons_of_not_mem (⟨r1, p1⟩ : View.Piece (Elt F) S25x32x4480 .f32) _ (not_mem_r1 ch b n (by omega))).trans ?_
  refine (congrArg (View.canon _) (r0_emb ch b n h).symm).trans ?_
  exact View.canon_cons_emb r0 p0 _ _

end Overlay

/-! ## The decode by channel -/

theorem chan_zero (c : Nat) (h : c = 0) (x w h' : F .f32) :
    Cert.BoxDecode.chan c x w h' = FloatOps.mulf (FloatOps.addf x Cert.BoxDecode.one) w := by
  unfold Cert.BoxDecode.chan
  rw [if_pos h]

theorem chan_one (c : Nat) (h : c = 1) (x w h' : F .f32) :
    Cert.BoxDecode.chan c x w h' = FloatOps.mulf (FloatOps.addf x Cert.BoxDecode.one) h' := by
  have h0 : ¬c = 0 := by omega
  unfold Cert.BoxDecode.chan
  rw [if_neg h0, if_pos h]

theorem chan_two (c : Nat) (h : c = 2) (x w h' : F .f32) :
    Cert.BoxDecode.chan c x w h' = FloatOps.mulf (FloatOps.exp x) w := by
  have h0 : ¬c = 0 := by omega
  have h1 : ¬c = 1 := by omega
  unfold Cert.BoxDecode.chan
  rw [if_neg h0, if_neg h1, if_pos h]

theorem chan_three (c : Nat) (h : c = 3) (x w h' : F .f32) :
    Cert.BoxDecode.chan c x w h' = FloatOps.mulf (FloatOps.exp x) h' := by
  have h0 : ¬c = 0 := by omega
  have h1 : ¬c = 1 := by omega
  have h2 : ¬c = 2 := by omega
  unfold Cert.BoxDecode.chan
  rw [if_neg h0, if_neg h1, if_neg h2, if_pos h]

theorem chan_rest (c : Nat) (h : 4 ≤ c) (x w h' : F .f32) : Cert.BoxDecode.chan c x w h' = x := by
  have h0 : ¬c = 0 := by omega
  have h1 : ¬c = 1 := by omega
  have h2 : ¬c = 2 := by omega
  have h3 : ¬c = 3 := by omega
  unfold Cert.BoxDecode.chan
  rw [if_neg h0, if_neg h1, if_neg h2, if_neg h3]

/-! ## The output block at an index -/

/-- The block the body leaves, at channel ch, image b, prior n: the decode of the input element there and of the
    prior's width and height. -/
theorem outBlock_apply (x0 : Vec F S25x32x4480 .f32) (x1 : Vec F S4x4480 .f32) (ch : Fin 25) (b : Fin 32) (n : Fin 4480) :
    outBlock x0 x1 (ix3 ch b n)
      = Cert.BoxDecode.chan ch.val (x0 (ix3 ch b n)) (x1 (ix2 (2 : Fin 4) n)) (x1 (ix2 (3 : Fin 4) n)) := by
  unfold outBlock pieces
  by_cases c4 : 4 ≤ ch.val
  · refine (canon_r4 _ _ _ _ _ ch b n c4).trans ?_
    refine (pay2_apply _ _).trans ?_
    refine Eq.trans ?_ (chan_rest ch.val c4 _ _ _).symm
    exact congrArg x0 (r4_emb ch b n c4)
  by_cases c3 : ch.val = 3
  · refine (canon_r3 _ _ _ _ _ ch b n c3).trans ?_
    refine (pay1_apply _ _ b n).trans ?_
    refine Eq.trans ?_ (chan_three ch.val c3 _ _ _).symm
    refine congrArg₂ FloatOps.mulf (congrArg FloatOps.exp (congrArg x0 (r3_emb ch b n c3))) ?_
    exact (pay4_apply _ _).trans (ld_qH x1 n)
  by_cases c2 : ch.val = 2
  · refine (canon_r2 _ _ _ _ _ ch b n c2).trans ?_
    refine (pay7_apply _ _ b n).trans ?_
    refine Eq.trans ?_ (chan_two ch.val c2 _ _ _).symm
    exact congrArg₂ FloatOps.mulf (congrArg FloatOps.exp (congrArg x0 (r2_emb ch b n c2))) (ld_qW x1 n)
  by_cases c1 : ch.val = 1
  · refine (canon_r1 _ _ _ _ _ ch b n c1).trans ?_
    refine (pay6_apply _ _ b n).trans ?_
    refine Eq.trans ?_ (chan_one ch.val c1 _ _ _).symm
    exact congrArg₂ FloatOps.mulf (congrArg₂ FloatOps.addf (congrArg x0 (r1_emb ch b n c1)) rfl) (ld_qH x1 n)
  · have c0 : ch.val = 0 := by omega
    refine (canon_r0 _ _ _ _ _ ch b n c0).trans ?_
    refine (pay5_apply _ _ b n).trans ?_
    refine Eq.trans ?_ (chan_zero ch.val c0 _ _ _).symm
    exact congrArg₂ FloatOps.mulf (congrArg₂ FloatOps.addf (congrArg x0 (r0_emb ch b n c0)) rfl) (ld_qW x1 n)

end Cert.KernelIdeal.Hand

end
-- ==== Proof.IdealRun.lean ====
/-
  The run of the whole program around the kernel: the proof data of the pipeline, the body at every grid point, and
  the frame.

  The 20000 priors are cut into five blocks of 4480; the last block overhangs the arrays by 2400 priors. A fetch of
  an overhanging block fills only the part of the staging buffer that lies inside the array; the rest of the buffer
  holds values nothing names. The body computes on the whole buffer, those values included, but every output
  element depends only on the input elements of ITS OWN prior, so on the priors inside the array the output block is
  determined by the parts of the input blocks inside the array — and that part is all the write-back moves.
-/
import proofs.«129822_g62637803045608_cont_9to1c4b_476_15_alg».proof.Proof.IdealBody
import proofs.«129822_g62637803045608_cont_9to1c4b_476_15_alg».proof.Proof.IdealPayload
import proofs.«129822_g62637803045608_cont_9to1c4b_476_15_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which part of a block a transfer moves -/

/-- The input block and the output block are cut alike at every point. -/
theorem xsize_in_out (t : Fin cfg0.N) (a : Fin 3) : win0_0.xsize (grid0.coords t) a = win0_2.xsize (grid0.coords t) a :=
  (by decide +kernel : ∀ (t : Fin grid0.N) (a : Fin 3), win0_0.xsize (grid0.coords t) a = win0_2.xsize (grid0.coords t) a) t a
/-- The prior block keeps its four rows and is cut on the priors as the output block is. -/
theorem xsize_prior (t : Fin cfg0.N) : win0_1.xsize (grid0.coords t) 0 = 4 ∧ win0_1.xsize (grid0.coords t) 1 = win0_2.xsize (grid0.coords t) 2 :=
  (by decide +kernel : ∀ t : Fin grid0.N, win0_1.xsize (grid0.coords t) 0 = 4 ∧ win0_1.xsize (grid0.coords t) 1 = win0_2.xsize (grid0.coords t) 2) t

/-- Two contents that agree wherever the transfer moves have the same moved part. -/
theorem cut_eq_of_agree {G : Pipeline.Grid} (w : Window sig G) {α : Type} (i : G.Coords) {X Y : w.block.Idx → α}
    (h : ∀ y, w.moved i y = true → X y = Y y) : w.cut i X = w.cut i Y :=
  funext fun j => h _ (w.moved_xinj i j)

/-- On the moved part a filled block is the filling, whatever it was filled over. -/
theorem fill_agree {G : Pipeline.Grid} (w : Window sig G) {α : Type} (i : G.Coords) (d d' : w.block.Idx → α) (g : (w.xblock i).Idx → α)
    {y : w.block.Idx} (h : w.moved i y = true) : w.fill i d g y = w.fill i d' g y := by
  unfold Window.fill; rw [dif_pos h, dif_pos h]

/-- THE LOCALITY OF THE BODY: if two pairs of input blocks agree on the parts inside the arrays, so do the output
    blocks the body makes of them. -/
theorem cut_outBlock_congr (t : Fin cfg0.N) (X0 Y0 : Vec F S25x32x4480 .f32) (X1 Y1 : Vec F S4x4480 .f32)
    (h0 : ∀ y, win0_0.moved (grid0.coords t) y = true → X0 y = Y0 y)
    (h1 : ∀ y, win0_1.moved (grid0.coords t) y = true → X1 y = Y1 y) :
    win0_2.cut (grid0.coords t) (outBlock X0 X1) = win0_2.cut (grid0.coords t) (outBlock Y0 Y1) := by
  refine cut_eq_of_agree win0_2 (grid0.coords t) fun (y : S25x32x4480.Idx) hy => ?_
  have hy' := (win0_2.moved_iff (grid0.coords t) y).mp hy
  have e0 : X0 y = Y0 y := h0 y ((win0_0.moved_iff (grid0.coords t) y).mpr fun a => by rw [xsize_in_out t a]; exact hy' a)
  obtain ⟨ch, b, n, rfl⟩ : ∃ (ch : Fin 25) (b : Fin 32) (n : Fin 4480), y = ix3 ch b n :=
    ⟨y 0, y 1, y 2, eq_ix3 (n0 := 25) (n1 := 32) (n2 := 4480) y⟩
  have e1 : ∀ k : Fin 4, X1 (ix2 k n) = Y1 (ix2 k n) := fun k =>
    h1 _ ((win0_1.moved_iff (grid0.coords t) (ix2 k n)).mpr fun a => by
      match a with
      | ⟨0, _⟩ => show k.val < win0_1.xsize (grid0.coords t) 0; rw [(xsize_prior t).1]; exact k.isLt
      | ⟨1, _⟩ => show n.val < win0_1.xsize (grid0.coords t) 1; rw [(xsize_prior t).2]; exact hy' 2)
  rw [outBlock_apply, outBlock_apply, e0, e1 2, e1 3]

/-! ## The pipeline's proof data -/

/-- The float zero word, the filler of what nothing names. -/
abbrev zw : Elt F .f32 := FloatOps.ofBits .f32 0#32

/-- The input block at point `t` as a whole buffer: the array's block on the part inside the array, zero past it. -/
def in0 (c : Dev nD) (t : Fin cfg0.N) : Vec F S25x32x4480 .f32 :=
  win0_0.fill (grid0.coords t) (fun _ => zw) (iblk m c 0 t)
/-- The prior block likewise. -/
def in1 (c : Dev nD) (t : Fin cfg0.N) : Vec F S4x4480 .f32 :=
  win0_1.fill (grid0.coords t) (fun _ => zw) (iblk m c 1 t)

/-- The proof data of the one pipeline on core `c`: the arrays as the region finds them; after the body at point `t`
    the inputs' buffers at their blocks and the output's at `outBlock` of them (each stated, as every window here is
    cut at the arrays' end, on the part inside the array only); the invariant the scoped rest; nothing owed. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => outBlock (in0 m c t) (in1 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = in0 m c t := by dsimp only [dats]
theorem after_1 (c : Dev nD) (t : Fin cfg0.N) : (dats m 0 c).after 1 t = in1 m c t := by dsimp only [dats]
theorem after_2 (c : Dev nD) (t : Fin cfg0.N) : (dats m 0 c).after 2 t = outBlock (in0 m c t) (in1 m c t) := by dsimp only [dats]

/-- What the body finds: each input's buffer just fetched — its block inside the array, `d` past it —, -/
theorem before_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]
theorem before_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk; rw [A_eq]
/-- the output's buffer at anything: every point writes it back. -/
theorem before_2 (c : Dev nD) (t : Fin cfg0.N) (d) : (dats m 0 c).before 2 t d = d := by
  refine (dats m 0 c).before_out_reset 2 rfl t ?_ d
  by_cases h0 : t.val = 0
  · exact .inl h0
  · exact .inr ⟨h0, flush0_2 _⟩

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: each buffer stated on the part its transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t)))))

/-- The body at any point. The inputs' buffers hold their blocks filled out past the arrays' end with whatever the
    fetch left there; the body leaves them so and the output's buffer at `outBlock` of them, which on the part inside
    the array is `outBlock` of the zero-filled blocks (the locality of the body). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after_0, after_1, after_2]
  iintro ⟨HΦ, Ho, ⟨%d0, H0⟩, ⟨%d1, H1⟩, ⟨%d2, H2⟩⟩
  rw [before_0 m c t d0, before_1 m c t d1, before_2 m c t d2]
  iapply (sound_kernel c Set.univ (grid0.coords t) _ _ _ _ _ _
    (win0_0.fill (grid0.coords t) d0 (iblk m c 0 t)) (win0_1.fill (grid0.coords t) d1 (iblk m c 1 t)) _)
  isplitl [H0]; · iexact H0
  isplitl [H1]; · iexact H1
  isplitl [H2]; · iexists d2; iexact H2
  iintro ⟨H0, H1, H2⟩
  isplitl [HΦ]; · iexact HΦ
  isplitl [Ho]; · iexact Ho
  isplitl [H0]
  · iexists d0
    unfold in0; rw [Window.cut_fill]; iexact H0
  isplitl [H1]
  · iexists d1
    unfold in1; rw [Window.cut_fill]; iexact H1
  · iexists outBlock (win0_0.fill (grid0.coords t) d0 (iblk m c 0 t)) (win0_1.fill (grid0.coords t) d1 (iblk m c 1 t))
    rw [← cut_outBlock_congr t (win0_0.fill (grid0.coords t) d0 (iblk m c 0 t)) (in0 m c t)
        (win0_1.fill (grid0.coords t) d1 (iblk m c 1 t)) (in1 m c t)
        (fun y hy => fill_agree win0_0 (grid0.coords t) d0 _ (iblk m c 0 t) hy)
        (fun y hy => fill_agree win0_1 (grid0.coords t) d1 _ (iblk m c 1 t) hy),
      Window.fill_cut]
    iexact H2

/-- The library's body obligation, at every point. -/
theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of @main
    terminates, every array of the pipeline ends at what the write-backs of the proof data make of it, and every
    other buffer as the operations after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.IdealValue.lean ====
/-
  What the program's result array holds after the run, as one function of the argument arrays.

  Point `t` of the grid writes back the part of its output block that lies inside the array: priors
  4480·t ‥ min(4480·(t+1), 20000) − 1, all 25 channels, all 32 images. On that part the output block is the
  channel-major decode of the channel-major input and the transposed prior table read at the same priors. The five
  parts cover the array, so the kernel's result array is the channel-major decode, and the program's result, its
  transpose, is the decode.
-/
import proofs.«129822_g62637803045608_cont_9to1c4b_476_15_alg».proof.Proof.IdealRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat Cfg Window)
open Cert.BoxDecode (chan decoded decodedT)

variable {F : FTy → Type} [FloatOps F]

variable (m : (ℓ : Loc nD τ sig) → Buf (Elt F) ℓ) (ρ : Dev nD → PrngReg)

/-! ## The block index maps, decided over the five points -/

/-- Channels and images are never cut; the block on the priors starts at 4480·t and ends at the array's end at the
    latest; the input and the prior blocks move with the output block. -/
theorem idx_facts : ∀ t : Fin cfg0.N,
    win0_2.index t (0 : Fin 3) = 0 ∧ win0_2.index t (1 : Fin 3) = 0 ∧ win0_2.index t (2 : Fin 3) = t.val
    ∧ win0_0.index t (0 : Fin 3) = 0 ∧ win0_0.index t (1 : Fin 3) = 0 ∧ win0_0.index t (2 : Fin 3) = t.val
    ∧ win0_1.index t (0 : Fin 2) = 0 ∧ win0_1.index t (1 : Fin 2) = t.val
    ∧ win0_2.xsize (grid0.coords t) (0 : Fin 3) = 25 ∧ win0_2.xsize (grid0.coords t) (1 : Fin 3) = 32
    ∧ t.val * 4480 + win0_2.xsize (grid0.coords t) (2 : Fin 3) = min ((t.val + 1) * 4480) 20000 :=
  (by decide +kernel : ∀ t : Fin grid0.N, _)

/-! ## The input blocks read where the output block's index says -/

/-- The input buffer at an index of the written-back part is the channel-major input at the array index under it. -/
theorem in0_at (c : Dev nD) (t : Fin cfg0.N) (j : (win0_2.xblock (grid0.coords t)).Idx) :
    in0 m c t (win0_2.xinj (grid0.coords t) j) = V m c main_v0 (((cfg0.win 2).blk t).view.emb j) := by
  obtain ⟨e0, e1, e2, f0, f1, f2, -⟩ := idx_facts t
  unfold in0
  refine (win0_0.fill_xinj (grid0.coords t) _ (iblk m c 0 t) j).trans ?_
  unfold iblk
  show V m c main_v0 (((cfg0.win 0).blk t).view.emb j) = V m c main_v0 (((cfg0.win 2).blk t).view.emb j)
  refine congrArg _ (funext fun a => Fin.ext ?_)
  match a with
  | ⟨0, _⟩ => show win0_0.index t (0 : Fin 3) * 25 + 1 * (j 0).val = win0_2.index t (0 : Fin 3) * 25 + 1 * (j 0).val; omega
  | ⟨1, _⟩ => show win0_0.index t (1 : Fin 3) * 32 + 1 * (j 1).val = win0_2.index t (1 : Fin 3) * 32 + 1 * (j 1).val; omega
  | ⟨2, _⟩ => show win0_0.index t (2 : Fin 3) * 4480 + 1 * (j 2).val = win0_2.index t (2 : Fin 3) * 4480 + 1 * (j 2).val; omega

/-- The prior buffer's rows at a prior of the written-back part are the transposed table's at the array prior. -/
theorem in1_at (c : Dev nD) (t : Fin cfg0.N) (j : (win0_2.xblock (grid0.coords t)).Idx) (k : Fin 4) :
    in1 m c t (ix2 k (win0_2.xinj (grid0.coords t) j 2)) = V m c main_v1 (ix2 k (((cfg0.win 2).blk t).view.emb j 2)) := by
  obtain ⟨e0, e1, e2, f0, f1, f2, g0, g1, -⟩ := idx_facts t
  have hj2 : (j 2).val < win0_2.xsize (grid0.coords t) 2 := (j 2).isLt
  let j1 : (win0_1.xblock (grid0.coords t)).Idx := fun a => match a with
    | ⟨0, _⟩ => ⟨k.val, by show k.val < win0_1.xsize (grid0.coords t) 0; rw [(xsize_prior t).1]; exact k.isLt⟩
    | ⟨1, _⟩ => ⟨(j 2).val, by show (j 2).val < win0_1.xsize (grid0.coords t) 1; rw [(xsize_prior t).2]; exact hj2⟩
  have hx : (ix2 k (win0_2.xinj (grid0.coords t) j 2) : S4x4480.Idx) = win0_1.xinj (grid0.coords t) j1 :=
    funext fun a => Fin.ext (by match a with | ⟨0, _⟩ => rfl | ⟨1, _⟩ => rfl)
  unfold in1
  rw [hx]
  refine (win0_1.fill_xinj (grid0.coords t) _ (iblk m c 1 t) j1).trans ?_
  unfold iblk
  show V m c main_v1 (((cfg0.win 1).blk t).view.emb j1) = _
  refine congrArg _ (funext fun a => Fin.ext ?_)
  match a with
  | ⟨0, _⟩ => show win0_1.index t (0 : Fin 2) * 4 + 1 * k.val = k.val; omega
  | ⟨1, _⟩ => show win0_1.index t (1 : Fin 2) * 4480 + 1 * (j 2).val = win0_2.index t (2 : Fin 3) * 4480 + 1 * (j 2).val; omega

/-! ## What a point writes back -/

/-- WHAT POINT `t` WRITES BACK is block `t` of the channel-major decode of the arrays the region finds. -/
theorem flushed_eq (c : Dev nD) (t : Fin cfg0.N) :
    (dats m 0 c).flushed 2 t = ((cfg0.win 2).blk t).view.read (Elt F) (decodedT (V m c main_v0) (V m c main_v1)) := by
  show win0_2.cut (grid0.coords t) ((dats m 0 c).after 2 t) = _
  rw [after_2]
  obtain ⟨e0, -⟩ := idx_facts t
  funext j
  show outBlock (in0 m c t) (in1 m c t) (win0_2.xinj (grid0.coords t) j)
    = decodedT (V m c main_v0) (V m c main_v1) (((cfg0.win 2).blk t).view.emb j)
  have l0 : (j 0).val < 25 := lt_of_lt_of_le (j 0).isLt (win0_2.xsize_le (grid0.coords t) 0)
  have l1 : (j 1).val < 32 := lt_of_lt_of_le (j 1).isLt (win0_2.xsize_le (grid0.coords t) 1)
  have l2 : (j 2).val < 4480 := lt_of_lt_of_le (j 2).isLt (win0_2.xsize_le (grid0.coords t) 2)
  have hx : (win0_2.xinj (grid0.coords t) j : S25x32x4480.Idx)
      = ix3 (⟨(j 0).val, l0⟩ : Fin 25) (⟨(j 1).val, l1⟩ : Fin 32) (⟨(j 2).val, l2⟩ : Fin 4480) :=
    funext fun a => by match a with | ⟨0, _⟩ => rfl | ⟨1, _⟩ => rfl | ⟨2, _⟩ => rfl
  refine (congrArg (outBlock (in0 m c t) (in1 m c t)) hx).trans ((outBlock_apply _ _ _ _ _).trans ?_)
  have a0 := in0_at m c t j
  rw [hx] at a0
  have a2 : in1 m c t (ix2 (2 : Fin 4) (⟨(j 2).val, l2⟩ : Fin 4480)) = _ := in1_at m c t j 2
  have a3 : in1 m c t (ix2 (3 : Fin 4) (⟨(j 2).val, l2⟩ : Fin 4480)) = _ := in1_at m c t j 3
  rw [a0, a2, a3]
  unfold decodedT
  rw [show (((cfg0.win 2).blk t).view.emb j 0).val = (j 0).val from by
    show win0_2.index t (0 : Fin 3) * 25 + 1 * (j 0).val = (j 0).val; omega]

/-- An index of the array is in point `t`'s written-back part iff each coordinate is in the part's range. -/
theorem mem_blk (t : Fin cfg0.N) (i : S25x32x20000.Idx) :
    i ∈ ((cfg0.win 2).blk t).view.set ↔ ∀ a : Fin 3, win0_2.index t a * S25x32x4480.size a ≤ (i a).val
      ∧ (i a).val < win0_2.index t a * S25x32x4480.size a + win0_2.xsize (grid0.coords t) a := by
  show i ∈ ((View.whole main_v2).slice (win0_2.rect t)).set ↔ _
  rw [View.set_slice_whole, Rect.mem_set_unit]
  exact Iff.rfl

/-- Every index of the array is in the part some point writes back: the point of its prior's block. -/
theorem covered (i : S25x32x20000.Idx) :
    ∃ t : Fin cfg0.N, (cfg0.win 2).flush t = true ∧ i ∈ ((cfg0.win 2).blk t).view.set := by
  have h0 : (i 0).val < 25 := (i 0).isLt
  have h1 : (i 1).val < 32 := (i 1).isLt
  have h2 : (i 2).val < 20000 := (i 2).isLt
  let t : Fin cfg0.N := ⟨(i 2).val / 4480, by rw [show cfg0.N = 5 from N_0]; omega⟩
  have ht : t.val = (i 2).val / 4480 := rfl
  obtain ⟨e0, e1, e2, -, -, -, -, -, x0, x1, x2⟩ := idx_facts t
  refine ⟨t, flush0_2 t, (mem_blk t i).mpr fun a => ?_⟩
  match a with
  | ⟨0, _⟩ => show win0_2.index t (0 : Fin 3) * 25 ≤ (i 0).val ∧ (i 0).val < win0_2.index t (0 : Fin 3) * 25 + win0_2.xsize (grid0.coords t) (0 : Fin 3); omega
  | ⟨1, _⟩ => show win0_2.index t (1 : Fin 3) * 32 ≤ (i 1).val ∧ (i 1).val < win0_2.index t (1 : Fin 3) * 32 + win0_2.xsize (grid0.coords t) (1 : Fin 3); omega
  | ⟨2, _⟩ => show win0_2.index t (2 : Fin 3) * 4480 ≤ (i 2).val ∧ (i 2).val < win0_2.index t (2 : Fin 3) * 4480 + win0_2.xsize (grid0.coords t) (2 : Fin 3); omega

/-- THE KERNEL'S RESULT ARRAY after the run: the channel-major decode of the arrays the region finds. -/
theorem final (c : Dev nD) : (dats m 0 c).arrAt 2 cfg0.N = decodedT (V m c main_v0) (V m c main_v1) :=
  (dats m 0 c).arrAt_eq_of_cover 2 _ (fun t _ => flushed_eq m c t) covered

/-! ## Around the kernel: the transposes -/

/-- The arrays the region finds are the arguments transposed channel-major. -/
theorem V_v0 (c : Dev nD) : (V m c main_v0 : S25x32x20000.Idx → Elt F .f32)
    = transpose S25x32x20000 [2, 0, 1] (m ((c : Thread nD τ).loc main_arg0)) transposes_S32x20000x25_S25x32x20000_2_0_1 := by
  show StableHlo.after hostOps0 (fun b => m (c, b)) (Proc.devRef .tc main_v0) = _
  after_results
theorem V_v1 (c : Dev nD) : (V m c main_v1 : S4x20000.Idx → Elt F .f32)
    = transpose S4x20000 [1, 0] (m ((c : Thread nD τ).loc main_arg1)) transposes_S20000x4_S4x20000_1_0 := by
  show StableHlo.after hostOps0 (fun b => m (c, b)) (Proc.devRef .tc main_v1) = _
  after_results

/-- The program's result: the kernel's result array transposed back. -/
theorem result_eq (c : Dev nD) :
    Pipeline.afterTail₀ cfgs (dats m) 0 (V0 m) [hostOps1] c main_v3
      = transpose S32x20000x25 [1, 2, 0] (decodedT (V m c main_v0) (V m c main_v1)) transposes_S25x32x20000_S32x20000x25_1_2_0 := by
  unfold Pipeline.afterTail₀
  show StableHlo.after hostOps1 _ (Proc.devRef .tc main_v3) = _
  after_results
  exact congrArg (fun x => transpose S32x20000x25 [1, 2, 0] x transposes_S25x32x20000_S32x20000x25_1_2_0)
    ((Pipeline.withArrays_arr spec0 launch0.win.arr_inj c _ _ 2).trans (final m c))

/-! ## The run, read -/

/-- THE VALUE RUN: every weakly fair execution terminates with the result array at the decode of the argument arrays —
    transposed in, decoded channel-major, transposed back — and the arguments as launched. -/
theorem run_value : θ_run defs (onTc (τ := τ) (main (F := F))) ⟨m, fun _ => 0, ρ⟩ fun r => ∀ c : Dev nD,
      r.2.mem ((c.tc : Thread nD τ).loc main_v3)
        = transpose S32x20000x25 [1, 2, 0]
            (decodedT (transpose S25x32x20000 [2, 0, 1] (m ((c.tc : Thread nD τ).loc main_arg0)) transposes_S32x20000x25_S25x32x20000_2_0_1)
              (transpose S4x20000 [1, 0] (m ((c.tc : Thread nD τ).loc main_arg1)) transposes_S20000x4_S4x20000_1_0))
            transposes_S25x32x20000_S32x20000x25_1_2_0
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans
          ((result_eq m c).trans (by rw [V_v0, V_v1])),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Hand

end
-- ==== Proof.RefSide.lean ====
import proofs.«129822_g62637803045608_cont_9to1c4b_476_15_alg».proof.Proof.Gen.ReferenceIdeal.Read
import proofs.«129822_g62637803045608_cont_9to1c4b_476_15_alg».proof.Proof.Decode
import Idealize.ShloMosaic.Lib.ValueIdx
import Idealize.ShloMosaic.Lib.Pipeline.Value
import Idealize.ShloMosaic.PureOps.Ideal.Laws

/-
  The reference program computes the box decode.

  The reference cuts the four offset channels out of the input, scales channels 0 and 1 as (p + 1) times the prior's
  width and height, scales channels 2 and 3 as exp p times the width and height, and joins these two pairs with the
  untouched 21 score channels along the channel axis. Read element by element, every output entry is one of the five
  expressions of Cert.BoxDecode.chan, chosen by the channel: the two sides are the same expression, so no
  arithmetic on the extended reals is needed, only the identification of the indices each stage reads.
-/

noncomputable section

namespace Cert.ReferenceIdeal.RefValue

open Cert.ReferenceIdeal Cert.ReferenceIdeal.Gen Cert.ReferenceIdeal.Read
open Idealize.ShloMosaic Idealize.ShloMosaic.ValueIdx

/-- The two argument arrays' types. -/
abbrev Preds : Type := (⟨S32x20000x25, .f32⟩ : BufTy).Contents (Elt Ideal)
abbrev Priors : Type := (⟨S20000x4, .f32⟩ : BufTy).Contents (Elt Ideal)

/-! ## The width-and-height columns, broadcast over the images -/

/-- The broadcast of the prior table's columns 2 and 3 at image b, prior n, column c reads the table at
    prior n, column 2 + c. -/
theorem sizes_at (x1 : Priors) (z : Fin 1) (n : Fin 20000) (c : Fin 2) :
    val_main_v3 (F := Ideal) x1 (ix3 z n c) = x1 (ix2 n (⟨2 + c.val, by omega⟩ : Fin 4)) := by
  have e : idx_main_v2 (idx_main_v3 (ix3 z n c)) = ix2 n (⟨2 + c.val, by omega⟩ : Fin 4) :=
    funext fun a => Fin.ext (by match a with | ⟨0, _⟩ => rfl | ⟨1, _⟩ => rfl)
  rw [val_main_v3_apply, val_main_v2_apply, e]

/-! ## The three pieces at an index -/

/-- Channels 0 and 1: (p + 1) times the prior's width (c = 0) or height (c = 1). -/
theorem shifted_at (x0 : Preds) (x1 : Priors) (b : Fin 32) (n : Fin 20000) (c : Fin 2) :
    val_main_v8 (F := Ideal) x0 x1 (ix3 b n c)
      = FloatOps.mulf (F := Ideal) (φ := .f32)
          (FloatOps.addf (F := Ideal) (φ := .f32) (x0 (ix3 b n (⟨c.val, by omega⟩ : Fin 25))) Cert.BoxDecode.one)
          (x1 (ix2 n (⟨2 + c.val, by omega⟩ : Fin 4))) := by
  have e0 : idx_main_v0 (idx_main_v4 (ix3 b n c)) = ix3 b n (⟨c.val, by omega⟩ : Fin 25) :=
    funext fun a => Fin.ext (by match a with | ⟨0, _⟩ => rfl | ⟨1, _⟩ => rfl | ⟨2, _⟩ => rfl)
  have e1 : idx_main_v7 (ix3 b n c) = ix3 (⟨0, Nat.one_pos⟩ : Fin 1) n c :=
    funext fun a => Fin.ext (by match a with | ⟨0, _⟩ => rfl | ⟨1, _⟩ => rfl | ⟨2, _⟩ => rfl)
  rw [val_main_v8_apply, val_main_v6_apply, val_main_v4_apply, val_main_v0_apply, val_main_v5_apply,
    val_main_cst_apply, val_main_v7_apply, e0, e1, sizes_at]

/-- Channels 2 and 3: exp p times the prior's width (c = 0) or height (c = 1). -/
theorem scaled_at (x0 : Preds) (x1 : Priors) (b : Fin 32) (n : Fin 20000) (c : Fin 2) :
    val_main_v12 (F := Ideal) x0 x1 (ix3 b n c)
      = FloatOps.mulf (F := Ideal) (φ := .f32)
          (FloatOps.exp (F := Ideal) (φ := .f32) (x0 (ix3 b n (⟨2 + c.val, by omega⟩ : Fin 25))))
          (x1 (ix2 n (⟨2 + c.val, by omega⟩ : Fin 4))) := by
  have e0 : idx_main_v0 (idx_main_v9 (ix3 b n c)) = ix3 b n (⟨2 + c.val, by omega⟩ : Fin 25) :=
    funext fun a => Fin.ext (by match a with | ⟨0, _⟩ => rfl | ⟨1, _⟩ => rfl | ⟨2, _⟩ => rfl)
  have e1 : idx_main_v11 (ix3 b n c) = ix3 (⟨0, Nat.one_pos⟩ : Fin 1) n c :=
    funext fun a => Fin.ext (by match a with | ⟨0, _⟩ => rfl | ⟨1, _⟩ => rfl | ⟨2, _⟩ => rfl)
  rw [val_main_v12_apply, val_main_v10_apply, val_main_v9_apply, val_main_v0_apply, val_main_v11_apply, e0, e1,
    sizes_at, Ideal.hostUnary_exp_def, Ideal.exp_def]

/-- The score channels: the input itself, 4 channels further. -/
theorem scores_at (x0 : Preds) (b : Fin 32) (n : Fin 20000) (c : Fin 21) :
    val_main_v1 (F := Ideal) x0 (ix3 b n c) = x0 (ix3 b n (⟨4 + c.val, by omega⟩ : Fin 25)) := by
  have e0 : idx_main_v1 (ix3 b n c) = ix3 b n (⟨4 + c.val, by omega⟩ : Fin 25) :=
    funext fun a => Fin.ext (by match a with | ⟨0, _⟩ => rfl | ⟨1, _⟩ => rfl | ⟨2, _⟩ => rfl)
  rw [val_main_v1_apply, e0]

/-! ## The join along the channel axis, piece by piece -/

/-- Channels below 2 come from the first piece. -/
theorem joined_lo (x0 : Preds) (x1 : Priors) (b : Fin 32) (n : Fin 20000) (ch : Fin 25) (h : ch.val < 2) :
    val_main_v13 (F := Ideal) x0 x1 (ix3 b n ch) = val_main_v8 (F := Ideal) x0 x1 (ix3 b n (⟨ch.val, h⟩ : Fin 2)) := by
  unfold val_main_v13
  exact concatenate_apply_piece (2 : Fin S32x20000x25.rank) _ _ (ix3 b n ch) 0 (by show 0 < 3; omega) S32x20000x2 _ rfl rfl 0 rfl
    (ix3 b n (⟨ch.val, h⟩ : Fin 2))
    (fun a => match a with
      | ⟨0, _⟩ => fun _ => rfl
      | ⟨1, _⟩ => fun _ => rfl
      | ⟨2, _⟩ => fun hne => absurd rfl hne)
    (by show 0 + ch.val = ch.val; omega)

/-- Channels 2 and 3 come from the second piece, two channels down. -/
theorem joined_mid (x0 : Preds) (x1 : Priors) (b : Fin 32) (n : Fin 20000) (ch : Fin 25) (h2 : 2 ≤ ch.val)
    (h4 : ch.val < 4) :
    val_main_v13 (F := Ideal) x0 x1 (ix3 b n ch)
      = val_main_v12 (F := Ideal) x0 x1 (ix3 b n (⟨ch.val - 2, by omega⟩ : Fin 2)) := by
  unfold val_main_v13
  exact concatenate_apply_piece (2 : Fin S32x20000x25.rank) _ _ (ix3 b n ch) 1 (by show 1 < 3; omega) S32x20000x2 _ rfl rfl 2 rfl
    (ix3 b n (⟨ch.val - 2, by omega⟩ : Fin 2))
    (fun a => match a with
      | ⟨0, _⟩ => fun _ => rfl
      | ⟨1, _⟩ => fun _ => rfl
      | ⟨2, _⟩ => fun hne => absurd rfl hne)
    (by show 2 + (ch.val - 2) = ch.val; omega)

/-- Channels from 4 on come from the third piece, four channels down. -/
theorem joined_hi (x0 : Preds) (x1 : Priors) (b : Fin 32) (n : Fin 20000) (ch : Fin 25) (h4 : 4 ≤ ch.val) :
    val_main_v13 (F := Ideal) x0 x1 (ix3 b n ch)
      = val_main_v1 (F := Ideal) x0 (ix3 b n (⟨ch.val - 4, by omega⟩ : Fin 21)) := by
  unfold val_main_v13
  exact concatenate_apply_piece (2 : Fin S32x20000x25.rank) _ _ (ix3 b n ch) 2 (by show 2 < 3; omega) S32x20000x21 _ rfl rfl 4 rfl
    (ix3 b n (⟨ch.val - 4, by omega⟩ : Fin 21))
    (fun a => match a with
      | ⟨0, _⟩ => fun _ => rfl
      | ⟨1, _⟩ => fun _ => rfl
      | ⟨2, _⟩ => fun hne => absurd rfl hne)
    (by show 4 + (ch.val - 4) = ch.val; omega)

/-! ## The reference is the decode -/

/-- At every image, prior and channel the reference's result is the decoded entry. -/
theorem reference_at (x0 : Preds) (x1 : Priors) (b : Fin 32) (n : Fin 20000) (ch : Fin 25) :
    val_main_v13 (F := Ideal) x0 x1 (ix3 b n ch) = Cert.BoxDecode.decoded (F := Ideal) x0 x1 (ix3 b n ch) := by
  show _ = Cert.BoxDecode.chan (F := Ideal) ch.val (x0 (ix3 b n ch)) (x1 (ix2 n (2 : Fin 4))) (x1 (ix2 n (3 : Fin 4)))
  obtain ⟨c, hc⟩ := ch
  by_cases h2 : c < 2
  · rw [joined_lo x0 x1 b n ⟨c, hc⟩ h2, shifted_at]
    unfold Cert.BoxDecode.chan
    by_cases h0 : c = 0
    · subst h0; rfl
    · have h1 : c = 1 := by omega
      subst h1; rfl
  · by_cases h4 : c < 4
    · rw [joined_mid x0 x1 b n ⟨c, hc⟩ (by show 2 ≤ c; omega) h4, scaled_at]
      unfold Cert.BoxDecode.chan
      by_cases h0 : c = 2
      · subst h0; rfl
      · have h1 : c = 3 := by omega
        subst h1; rfl
    · rw [joined_hi x0 x1 b n ⟨c, hc⟩ (by show 4 ≤ c; omega), scores_at]
      unfold Cert.BoxDecode.chan
      rw [if_neg (by show ¬ c = 0; omega), if_neg (by show ¬ c = 1; omega), if_neg (by show ¬ c = 2; omega),
        if_neg (by show ¬ c = 3; omega)]
      refine congrArg x0 (funext fun a => Fin.ext ?_)
      match a with
      | ⟨0, _⟩ => rfl
      | ⟨1, _⟩ => rfl
      | ⟨2, _⟩ => show 4 + (c - 4) = c; omega

/-- The reference's result, as a function of the two argument arrays, is the box decode. -/
theorem reference_is_decoded (x0 : (⟨Cert.ReferenceIdeal.S32x20000x25, .f32⟩ : BufTy).Contents (Elt Ideal))
    (x1 : (⟨Cert.ReferenceIdeal.S20000x4, .f32⟩ : BufTy).Contents (Elt Ideal)) :
    Cert.ReferenceIdeal.Read.val_main_v13 (F := Ideal) x0 x1 = Cert.BoxDecode.decoded (F := Ideal) x0 x1 := by
  funext i
  obtain ⟨b, n, ch, rfl⟩ : ∃ (b : Fin 32) (n : Fin 20000) (ch : Fin 25), i = ix3 b n ch := ⟨i 0, i 1, i 2, eq_ix3 i⟩
  exact reference_at x0 x1 b n ch

end Cert.ReferenceIdeal.RefValue

end
-- ==== Proof.DecodeLayout.lean ====
/-
  The two layouts of the box decode agree.

  `decoded` is written in the arguments' own layout (image, prior, channel) and `decodedT` in the channel-major
  layout (channel, image, prior) with the prior table transposed. Moving the arguments into the channel-major
  layout, decoding there and moving the result back is the decode: a transpose only renames indices, so at the
  index (b, n, ch) both sides are `chan ch` of the same element of `p` and the same width and height of prior `n`.
-/
import proofs.«129822_g62637803045608_cont_9to1c4b_476_15_alg».proof.Proof.Decode
import Idealize.ShloMosaic.Lib.ValueIdx
import Idealize.ShloMosaic.Lib.Pipeline.Value

noncomputable section

namespace Cert.BoxDecode

open Idealize.ShloMosaic Idealize.ShloMosaic.ValueIdx

variable {F : FTy → Type} [FloatOps F]

/-- Transposing the arguments to channel-major, decoding there, and transposing the result back is the decode. -/
theorem decoded_eq_transposes (p : FVec F ⟨3, ![32, 20000, 25]⟩ .f32) (pb : FVec F ⟨2, ![20000, 4]⟩ .f32)
    (h0 : (⟨3, ![32, 20000, 25]⟩ : Shape).Transposes [2, 0, 1] ⟨3, ![25, 32, 20000]⟩)
    (h1 : (⟨2, ![20000, 4]⟩ : Shape).Transposes [1, 0] ⟨2, ![4, 20000]⟩)
    (h2 : (⟨3, ![25, 32, 20000]⟩ : Shape).Transposes [1, 2, 0] ⟨3, ![32, 20000, 25]⟩) :
    transpose ⟨3, ![32, 20000, 25]⟩ [1, 2, 0]
        (decodedT (transpose ⟨3, ![25, 32, 20000]⟩ [2, 0, 1] p h0) (transpose ⟨2, ![4, 20000]⟩ [1, 0] pb h1)) h2
      = decoded p pb := by
  funext i
  obtain ⟨b, n, ch, rfl⟩ : ∃ (b : Fin 32) (n : Fin 20000) (ch : Fin 25), i = ix3 b n ch :=
    ⟨i 0, i 1, i 2, eq_ix3 (n0 := 32) (n1 := 20000) (n2 := 25) i⟩
  -- the result at (b, n, ch) is the channel-major decode at (ch, b, n)
  refine (transpose_apply _ _ h2 (ix3 b n ch) (ix3 ch b n)
    fun a => match a with | ⟨0, _⟩ => rfl | ⟨1, _⟩ => rfl | ⟨2, _⟩ => rfl).trans ?_
  -- the transposed input at (ch, b, n) is the input at (b, n, ch)
  have e0 : transpose ⟨3, ![25, 32, 20000]⟩ [2, 0, 1] p h0 (ix3 ch b n) = p (ix3 b n ch) :=
    transpose_apply _ p h0 (ix3 ch b n) (ix3 b n ch)
      fun a => match a with | ⟨0, _⟩ => rfl | ⟨1, _⟩ => rfl | ⟨2, _⟩ => rfl
  -- the transposed prior table at (c, n) is the prior table at (n, c)
  have e1 : ∀ c : Fin 4, transpose ⟨2, ![4, 20000]⟩ [1, 0] pb h1 (ix2 c n) = pb (ix2 n c) := fun c =>
    transpose_apply _ pb h1 (ix2 c n) (ix2 n c) fun a => match a with | ⟨0, _⟩ => rfl | ⟨1, _⟩ => rfl
  show chan ch.val (transpose ⟨3, ![25, 32, 20000]⟩ [2, 0, 1] p h0 (ix3 ch b n))
      (transpose ⟨2, ![4, 20000]⟩ [1, 0] pb h1 (ix2 (2 : Fin 4) n))
      (transpose ⟨2, ![4, 20000]⟩ [1, 0] pb h1 (ix2 (3 : Fin 4) n))
    = chan ch.val (p (ix3 b n ch)) (pb (ix2 n (2 : Fin 4))) (pb (ix2 n (3 : Fin 4)))
  rw [e0, e1, e1]

end Cert.BoxDecode

end
-- ==== Proof.lean ====
/-
  The kernel decodes SSD box offsets against a table of priors: for each of 32 images and 20000 priors the 25 input
  values become (p + 1)·w, (p + 1)·h, exp p·w, exp p·h and 21 scores passed through, with w and h the prior's width
  and height. It streams the arrays channel-major in five blocks of 4480 priors; the reference slices, scales and
  joins the same values in the arguments' own layout. Both are one function of the arguments, element by element:
  `Cert.BoxDecode.decoded`. No algebraic law is needed to join them (the two sides spell the same expression), so the
  precondition is never opened.

  The last block overhangs the arrays by 2400 priors. What the body computes there is never written back, and what it
  writes back depends only on input elements inside the arrays (the body is pointwise in the prior): that is what
  the frames and the value of the result rest on. The idealization rewrote nothing, so the preservation claim is trivial.
-/
import proofs.«129822_g62637803045608_cont_9to1c4b_476_15_alg».proof.Defs
import proofs.«129822_g62637803045608_cont_9to1c4b_476_15_alg».proof.Proof.Gen.Kernel
import proofs.«129822_g62637803045608_cont_9to1c4b_476_15_alg».proof.Proof.Gen.KernelIdeal
import proofs.«129822_g62637803045608_cont_9to1c4b_476_15_alg».proof.Proof.Gen.ReferenceIdeal
import proofs.«129822_g62637803045608_cont_9to1c4b_476_15_alg».proof.Proof.Gen.Pre_finite_inputs
import proofs.«129822_g62637803045608_cont_9to1c4b_476_15_alg».proof.Proof.Gen.ReferenceIdeal.Run
import proofs.«129822_g62637803045608_cont_9to1c4b_476_15_alg».proof.Proof.BitsRun
import proofs.«129822_g62637803045608_cont_9to1c4b_476_15_alg».proof.Proof.IdealValue
import proofs.«129822_g62637803045608_cont_9to1c4b_476_15_alg».proof.Proof.RefSide
import proofs.«129822_g62637803045608_cont_9to1c4b_476_15_alg».proof.Proof.DecodeLayout
import Idealize.ShloMosaic.Adequacy
import Idealize.ShloMosaic.Init

noncomputable section

namespace Cert.Proof

open Idealize.ShloMosaic Idealize.ShloMosaic.TcCoe Idealize.SL.Sem

/-- The printed program runs to the end and leaves its arguments as launched. -/
theorem frame_k : Cert.frame_Kernel := fun m ρ _ => Cert.Kernel.Hand.frame (F := Bits) m ρ

/-- So does the idealized program. -/
theorem frame_ki : Cert.frame_KernelIdeal := fun m ρ _ => Cert.KernelIdeal.Hand.frame (F := Ideal) m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals both programs end with the result array at the decode of the arguments: the kernel's
    array is the channel-major decode transposed back, the reference's join of its three pieces is the decode index
    by index. -/
theorem algebraic : Cert.algebraic_KernelIdeal_ReferenceIdeal := by
  intro m ρ m' ρ' _ hagree
  refine ⟨fun c => Cert.BoxDecode.decoded (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩)
      (Cert.KernelIdeal.Hand.run_value (F := Ideal) m ρ)
    exact Cert.BoxDecode.decoded_eq_transposes _ _ _ _ _
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v13_eq, Cert.ReferenceIdeal.RefValue.reference_is_decoded,
      (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
